-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S256x4096 : Shape := ⟨2, ![256, 4096]⟩
abbrev S2x128x32x128 : Shape := ⟨4, ![2, 128, 32, 128]⟩
abbrev S2x32x128 : Shape := ⟨3, ![2, 32, 128]⟩
abbrev S2x32 : Shape := ⟨2, ![2, 32]⟩
abbrev S2x32x1 : Shape := ⟨3, ![2, 32, 1]⟩
abbrev S2x1x32x1 : Shape := ⟨4, ![2, 1, 32, 1]⟩
abbrev S8192x4096 : Shape := ⟨2, ![8192, 4096]⟩
abbrev S1x16384 : Shape := ⟨2, ![1, 16384]⟩
abbrev S8192x16384 : Shape := ⟨2, ![8192, 16384]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩
abbrev S4x2048x16384 : Shape := ⟨3, ![4, 2048, 16384]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x4096, .bf16⟩
  | .hbm, ⟨4, _⟩ => ⟨S8192x4096, .f32⟩
  | .hbm, ⟨5, _⟩ => ⟨S8192x4096, .bf16⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  shapeCasts_S256x4096_S2x128x32x128 : S256x4096.ShapeCasts S2x128x32x128
  reduces_S2x128x32x128_S2x32x128 : S2x128x32x128.Reduces [1] S2x32x128
  reduces_S2x32x128_S2x32 : S2x32x128.Reduces [2] S2x32
  shapeCasts_S2x32_S2x32x1 : S2x32.ShapeCasts S2x32x1
  shapeCasts_S2x32x1_S2x1x32x1 : S2x32x1.ShapeCasts S2x1x32x1
  broadcasts_S2x1x32x1_S2x128x32x128 : S2x1x32x1.Broadcasts S2x128x32x128
  shapeCasts_S2x128x32x128_S256x4096 : S2x128x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x16384_S4x2048x16384 : S8192x16384.ShapeCasts S4x2048x16384
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .bf16 = 32 ∨ (Rect.block (s := S16384x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S16384x4096.size a
  hwx1_1 : ∀ i : grid1.Coords, EltTy.bits .bf16 = 32 ∨ (Rect.block (s := S16384x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x16384.size a
  hwx1_3 : ∀ i : grid1.Coords, EltTy.bits .f32 = 32 ∨ (Rect.block (s := S8192x16384) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S128x128x32x128 : Shape := ⟨4, ![128, 128, 32, 128]⟩
abbrev S128x32x128x128 : Shape := ⟨4, ![128, 32, 128, 128]⟩
abbrev S_ : Shape := ⟨0, ![]⟩
abbrev S128x32 : Shape := ⟨2, ![128, 32]⟩
abbrev S128x32x1x1 : Shape := ⟨4, ![128, 32, 1, 1]⟩
abbrev S4x2048x16384 : Shape := ⟨3, ![4, 2048, 16384]⟩
abbrev S1x1x16384 : Shape := ⟨3, ![1, 1, 16384]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S128x128x32x128, .f32⟩
  | .hbm, ⟨4, _⟩ => ⟨S128x32x128x128, .f32⟩
  | .hbm, ⟨5, _⟩ => ⟨S128x32x128x128, .f32⟩
  | .hbm, ⟨6, _⟩ => ⟨S_, .f32⟩
  | .hbm, ⟨7, _⟩ => ⟨S128x32, .f32⟩
  | .hbm, ⟨8, _⟩ => ⟨S128x32x1x1, .f32⟩
  | .hbm, ⟨9, _⟩ => ⟨S_, .f32⟩
  | .hbm, ⟨10, _⟩ => ⟨S128x32x1x1, .f32⟩
  | .hbm, ⟨11, _⟩ => ⟨S128x32x1x1, .f32⟩
  | .hbm, ⟨12, _⟩ => ⟨S_, .f32⟩
  | .hbm, ⟨13, _⟩ => ⟨S128x32x1x1, .f32⟩
  | .hbm, ⟨14, _⟩ => ⟨S128x32x1x1, .f32⟩
  | .hbm, ⟨15, _⟩ => ⟨S128x32x128x128, .f32⟩
  | .hbm, ⟨16, _⟩ => ⟨S128x32x128x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128x32x128x128, .f32⟩
  | .hbm, ⟨21, _⟩ => ⟨S128x32x128x128, .f32⟩
  | .hbm, ⟨22, _⟩ => ⟨S_, .f32⟩
  | .hbm, ⟨23, _⟩ => ⟨S128x32x128x128, .f32⟩
  | .hbm, ⟨24, _⟩ => ⟨S128x32x128x128, .f32⟩
  | .hbm, ⟨25, _⟩ => ⟨S128x32x128x128, .f32⟩
  | .hbm, ⟨26, _⟩ => ⟨S128x32x128x128, .f32⟩
  | .hbm, ⟨27, _⟩ => ⟨S128x128x32x128, .f32⟩
  | .hbm, ⟨28, _⟩ => ⟨S16384x4096, .f32⟩
  | .hbm, ⟨29, _⟩ => ⟨S4x2048x16384, .f32⟩
  | .hbm, ⟨30, _⟩ => ⟨S1x1x16384, .f32⟩
  | .hbm, ⟨31, _⟩ => ⟨S4x2048x16384, .f32⟩
  | .hbm, ⟨32, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  shapeCasts_S16384x4096_S128x128x32x128 : S16384x4096.ShapeCasts S128x128x32x128
  transposes_S128x128x32x128_S128x32x128x128_0_2_1_3 : S128x128x32x128.Transposes [0, 2, 1, 3] S128x32x128x128
  reducesTo_S128x32x128x128_S128x32_d2_3 : S128x32x128x128.ReducesTo [2, 3] S128x32
  h_S_ : 0 < S_.numel
  bcast_S128x32_S128x32x1x1_0_1 : S128x32.BroadcastsInDim S128x32x1x1 (![0, 1] : Fin 2 → Fin S128x32x1x1.rank)
  bcast_S_S128x32x1x1 : S_.BroadcastsInDim S128x32x1x1 (![] : Fin 0 → Fin S128x32x1x1.rank)
  bcast_S128x32x1x1_S128x32x128x128_0_1_2_3 : S128x32x1x1.BroadcastsInDim S128x32x128x128 (![0, 1, 2, 3] : Fin 4 → Fin S128x32x128x128.rank)
  bcast_S_S128x32x128x128 : S_.BroadcastsInDim S128x32x128x128 (![] : Fin 0 → Fin S128x32x128x128.rank)
  transposes_S128x32x128x128_S128x128x32x128_0_2_1_3 : S128x32x128x128.Transposes [0, 2, 1, 3] S128x128x32x128
  shapeCasts_S128x128x32x128_S16384x4096 : S128x128x32x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.K.QuantBody.lean ====
/-
  Region 0, the quantise/restore pass over the weight matrix, as the pipeline runs it: at each of its 64 grid points the
  body reads one slab of 256 rows through the input window and writes the slab's quantised-and-restored values through
  the output window. Stated at a parameter `V`: the buffer contents when the region is entered. What the output
  window's buffer holds after the body at a point is the body's one store read back over the input slab.
-/
import proofs.«154149_j74577812128642_2_alg».proof.Proof.Gen.Kernel.Launch
import proofs.«154149_j74577812128642_2_alg».proof.Proof.Gen.Kernel.Skeleton
import proofs.«154149_j74577812128642_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the point's slab, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole slab as a rectangle: the body's one load and its one store go through it. -/
abbrev rq : Rect S256x4096 := Rect.unit (s := S256x4096) ![0, 0] S256x4096.size inb_S256x4096_S256x4096_0_0

/-- The output window's buffer after the body: the one store, over the loaded slab. -/
def out0_1 (x0 : Vec F S256x4096 .f32) : Vec F S256x4096 .bf16 :=
  View.canon [⟨rq, k0_pay1 (View.ld x0 rq)⟩]

/-- The store covers the buffer. -/
theorem cover0_1 (p0 : Vec F S256x4096 .bf16) (y : S256x4096.Idx) :
    ∃ pc ∈ ([⟨rq, p0⟩] : List (View.Piece (Elt F) S256x4096 .bf16)), y ∈ pc.1.set :=
  View.cover_of_tiled [⟨rq, p0⟩] S256x4096.size (by rfl) y

set_option maxHeartbeats 1000000 in
/-- The body on whole staging buffers: the input's contents stay, the output's become `out0_1` of them. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core `c`: its arrays as the region finds them; after the body the input buffer at the
    point's slab and the output buffer at `out0_1` of it; the invariant the untouched scoped rest and generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.MatmulBody.lean ====
/-
  Region 1, the matmul pass, as the pipeline runs it on its 8 × 8 × 8 grid (order (i, j, k), k innermost, so that the
  position t has k = t mod 8). At each point the body adds to a 1024 × 2048 accumulator the product of a 1024 × 512 block
  of the activations with a 2048 × 512 block of the restored weight; at k = 0 it first resets the accumulator to zeros,
  and at k = 7 it stores the accumulator plus the bias row into the output tile. The accumulator lives in a buffer of the
  kernel's own that is carried from point to point, so the region's invariant names its contents: after position n it is
  `acc1 n`, the sum so far over the current output tile's k-blocks. Three cases meet the grid: k = 0 (reset, then add),
  0 < k < 7 (add) and k = 7 (add, then store the tile); the output window is idle, and its block is not written back,
  except at k = 7.

  Everything here is stated at a parameter `V`, the buffer contents when the region is entered, and at any float
  instance.
-/
import proofs.«154149_j74577812128642_2_alg».proof.Proof.Gen.Kernel.Launch
import proofs.«154149_j74577812128642_2_alg».proof.Proof.Gen.Kernel.Skeleton
import proofs.«154149_j74577812128642_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first branch's condition (the accumulator is reset): the innermost grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the output tile is stored): the innermost grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The whole accumulator tile as a rectangle; its offsets are zero, so one store through it covers the tile. -/
abbrev rAcc : Rect S1024x2048 := Rect.unit (s := S1024x2048) ![0, 0] S1024x2048.size inb_S1024x2048_S1024x2048_0_0
theorem hzAcc : (![0, 0] : Fin S1024x2048.rank → Nat) = fun _ => 0 := by funext a; fin_cases a <;> rfl
theorem hzX : (![0, 0] : Fin S1024x512.rank → Nat) = fun _ => 0 := by funext a; fin_cases a <;> rfl
theorem hzW : (![0, 0] : Fin S2048x512.rank → Nat) = fun _ => 0 := by funext a; fin_cases a <;> rfl
theorem hzB : (![0, 0] : Fin S1x2048.rank → Nat) = fun _ => 0 := by funext a; fin_cases a <;> rfl

theorem coverAcc (p0 : Vec F S1024x2048 .f32) (L : List (View.Piece (Elt F) S1024x2048 .f32)) (y : S1024x2048.Idx) :
    ∃ pc ∈ ((⟨rAcc, p0⟩ : View.Piece (Elt F) S1024x2048 .f32) :: L), y ∈ pc.1.set :=
  ⟨_, List.mem_cons_self, View.mem_set_unit_zero hzAcc inb_S1024x2048_S1024x2048_0_0 y⟩

/-! ## The body on any whole memrefs, case by case -/

set_option maxHeartbeats 1000000 in
/-- Case B (0 < k < 7): neither branch is taken. The accumulator, held at `xs`, gains this point's product; the output
    window's buffer is handed back as it was found. -/
theorem kernelRun1_B (c : Dev nD) (i : grid1.Coords)
    (arg3 : Memref sig .tc .vmem S1024x512 .bf16) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole)
    (hc0 : ¬cond1_0 i) (hc1 : ¬cond1_1 i)
    (x0 : Vec F S1024x512 .bf16) (x1 : Vec F S2048x512 .bf16) (x2 : Vec F S1x2048 .f32) (xi3 : Vec F S1024x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  refine (View.read_writes_eq_canon _ _ _ (coverAcc _ _)).trans ?_
  refine (View.canon_cons_unit_zero hzAcc _ _ _).trans ?_
  exact congr (congr (congrArg k1_pay2 (View.ld_unit_zero hzAcc _ _)) (View.ld_unit_zero hzX _ _)) (View.ld_unit_zero hzW _ _)

set_option maxHeartbeats 1000000 in
/-- Case A (k = 0): the first branch is taken, the second is not. Whatever the accumulator held, it is reset to zeros and
    then gains this point's product; the output window's buffer is handed back as it was found. -/
theorem kernelRun1_A (c : Dev nD) (i : grid1.Coords)
    (arg3 : Memref sig .tc .vmem S1024x512 .bf16) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole)
    (hc0 : cond1_0 i) (hc1 : ¬cond1_1 i)
    (x0 : Vec F S1024x512 .bf16) (x1 : Vec F S2048x512 .bf16) (x2 : Vec F S1x2048 .f32) (xi3 : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  refine (View.read_writes_eq_canon _ _ _ (coverAcc _ _)).trans ?_
  refine (View.canon_cons_unit_zero hzAcc _ _ _).trans ?_
  first
    | exact congr (congr (congrArg k1_pay2 (View.readCov_unit_zero _ hzAcc _ _)) (View.ld_unit_zero hzX _ _)) (View.ld_unit_zero hzW _ _)
    | fail "A-pay"

set_option maxHeartbeats 1000000 in
/-- Case C (k = 7): the second branch is taken. The accumulator, held at `xs`, gains this point's product, and the
    output window's buffer, whatever it held, is left at the accumulator plus the bias row. -/
theorem kernelRun1_C (c : Dev nD) (i : grid1.Coords)
    (arg3 : Memref sig .tc .vmem S1024x512 .bf16) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole)
    (hc0 : ¬cond1_0 i) (hc1 : cond1_1 i)
    (x0 : Vec F S1024x512 .bf16) (x1 : Vec F S2048x512 .bf16) (x2 : Vec F S1x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (coverAcc _ _)).trans ?_
    refine (View.canon_cons_unit_zero hzAcc _ _ _).trans ?_
    first
      | exact congr (congrArg k1_pay3 ((View.readCov_unit_zero _ hzAcc _ _).trans (congr (congr (congrArg k1_pay2 (View.ld_unit_zero hzAcc _ _)) (View.ld_unit_zero hzX _ _)) (View.ld_unit_zero hzW _ _)))) (View.ld_unit_zero hzB _ _)
      | fail "C-pay"
  iexists _; isplitr
  swap; · iexact HS
  ipureintro
  refine (View.read_writes_eq_canon _ _ _ (coverAcc _ _)).trans ?_
  refine (View.canon_cons_unit_zero hzAcc _ _ _).trans ?_
  exact congr (congr (congrArg k1_pay2 (View.ld_unit_zero hzAcc _ _)) (View.ld_unit_zero hzX _ _)) (View.ld_unit_zero hzW _ _)

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current buffer holds the point's block, fetched at that point or not: where it is not fetched
    (the bias row, away from k = 0) the block index has not moved since the point before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- The accumulator after the body at position n: the sum so far over the current output tile's k-blocks (restarted from zeros where n % 8 = 0). -/
def acc1 (c : Dev nD) : (n : ℕ) → n < cfg1.N → Vec F S1024x2048 .f32
  | 0, hn => k1_pay2 (k1_pay1 (F := F)) (iblk1 V c 0 ⟨0, hn⟩) (iblk1 V c 1 ⟨0, hn⟩)
  | n + 1, hn => k1_pay2 (if (n + 1) % 8 = 0 then k1_pay1 (F := F) else acc1 c n (Nat.lt_of_succ_lt hn)) (iblk1 V c 0 ⟨n + 1, hn⟩) (iblk1 V c 1 ⟨n + 1, hn⟩)

/-- At a point with k = 0 the sum restarts: zeros plus this point's product. -/
theorem acc1_reset (c : Dev nD) (t : Fin cfg1.N) (h0 : t.val % 8 = 0) :
    acc1 V c t.val t.isLt = k1_pay2 (k1_pay1 (F := F)) (iblk1 V c 0 t) (iblk1 V c 1 t) := by
  obtain ⟨n, hn⟩ := t
  cases n with
  | zero => rfl
  | succ n => exact congrArg (fun a => k1_pay2 a (iblk1 V c 0 ⟨n + 1, hn⟩) (iblk1 V c 1 ⟨n + 1, hn⟩)) (if_pos h0)

/-- At a point with k > 0 the sum continues: what the point before left plus this point's product. -/
theorem acc1_step (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact congrArg (fun a => k1_pay2 a (iblk1 V c 0 ⟨n + 1, hn⟩) (iblk1 V c 1 ⟨n + 1, hn⟩)) (if_neg h0)

/-! ## The region's invariant -/

/-- The accumulator's buffer, passed to the body beside the windows. -/
abbrev scM1 : Memref sig .tc .vmem S1024x2048 .f32 := Memref.whole cc1_scratch0

/-- A scoped buffer of the core, whole, at some contents. -/
abbrev anyAt1 (c : Dev nD) (b : Ref sig .tc) : sProp 𝕄 :=
  iprop(∃ f : Buf (Elt F) ((c : Thread nD τ).loc b), ((c : Thread nD τ).loc b) ↦{fullShare} f)

/-- What the region is entered with, the accumulator's buffer spelt as a memref owned at some contents. -/
theorem PhiA1_eq (c : Dev nD) :
    (Pipeline.ΦA spec1 c : sProp 𝕄)
      = iprop((anyAt1 (F := F) c cc0_stg0_0 ∗ anyAt1 (F := F) c cc0_stg0_1 ∗ anyAt1 (F := F) c cc0_stg1_0 ∗ anyAt1 (F := F) c cc0_stg1_1 ∗ (∃ d, owns (c : Thread nD τ) scM1 fullShare d)) ∗ (∃ r, prngReg c r)) := by
  unfold Pipeline.ΦA; rw [scopedRest1_eq]; simp only [scM1, owns_whole]; try rfl

/-- The invariant before position `n`: before the first point, what the region is entered with; afterwards the other four
    scoped buffers at anything, the accumulator's buffer at what the point before left in it, and the core's random-number register
    at some state. -/
def PhiS1 (c : Dev nD) : (n : ℕ) → n ≤ cfg1.N → sProp 𝕄
  | 0, _ => Pipeline.ΦA spec1 c
  | n + 1, hn => iprop((anyAt1 (F := F) c cc0_stg0_0 ∗ anyAt1 (F := F) c cc0_stg0_1 ∗ anyAt1 (F := F) c cc0_stg1_0 ∗ anyAt1 (F := F) c cc0_stg1_1 ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((anyAt1 (F := F) c cc0_stg0_0 ∗ anyAt1 (F := F) c cc0_stg0_1 ∗ anyAt1 (F := F) c cc0_stg1_0 ∗ anyAt1 (F := F) c cc0_stg1_1 ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop((anyAt1 (F := F) c cc0_stg0_0 ∗ anyAt1 (F := F) c cc0_stg0_1 ∗ anyAt1 (F := F) c cc0_stg1_0 ∗ anyAt1 (F := F) c cc0_stg1_1 ∗ owns (c : Thread nD τ) scM1 fullShare (acc1 V c (n - 1) (by omega))) ∗ (∃ r, prngReg c r)) := by
  cases n with
  | zero => exact absurd rfl hz
  | succ n => rfl

/-! ## The pipeline's proof data -/

/-- The proof data of the matmul region on core `c`: the arrays as the region finds them; after the body at point `t`
    each input's buffer at its block and the output's at the accumulator plus the bias row; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the innermost coordinate k = t mod 8 says which case the
    point is in. The invariant hands the body the accumulator at what the point before left (at anything before the first
    point, and at any point with k = 0 the body resets it whatever it held) and takes it back at this point's sum. Where
    k < 7 the output window is idle and not written back: its buffer goes back as found; at k = 7 it is left at the sum plus
    the bias row. The other scoped buffers, the core's random-number register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h7 : t.val % 8 = 7
  · have h0 : ¬t.val % 8 = 0 := by omega
    have hz : t.val ≠ 0 := fun e => by rw [e] at h7; exact absurd h7 (by decide)
    rw [show (dat1 V c).leavesExact 3 t = owns (c : Thread nD τ) (st1_3 t) fullShare ((dat1 V c).after 3 t) from by
      unfold Dat.leavesExact; rw [liveAt1_3 t ((hcond1_1 t).mpr h7)], after1_3]
    rw [acc1_step V c t h0]
    rw [PhiS1_castSucc V c t, PhiS1_pos V c _ _ hz]
    iintro ⟨⟨⟨HA, HB, HC, HD, HS⟩, Hg⟩, Ho, ⟨%d0, H0⟩, ⟨%d1, H1⟩, ⟨%d2, H2⟩, ⟨%d3, H3⟩⟩
    iapply (kernelRun1_C c (grid1.coords t) _ _ _ _ _ _ _ _ _ _ (fun h => h0 ((hcond1_0 t).mp h)) ((hcond1_1 t).mpr h7) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HA HB HC HD HS Hg]
    · isplitl [HA HB HC HD HS]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    isplitl [H2]; · iexact H2
    iexact H3
  · by_cases h0 : t.val % 8 = 0
    · rw [Dat.leavesExact_idle (dat1 V c) 3 t (idleAt1_3 t (fun h => h7 ((hcond1_1 t).mp h))) (noFlush1_3 t (fun h => h7 ((hcond1_1 t).mp h)))]
      rw [acc1_reset V c t h0]
      by_cases hz : t.val = 0
      · rw [PhiS1_castSucc V c t, PhiS1_zero V c _ _ hz, PhiA1_eq]
        iintro ⟨⟨⟨HA, HB, HC, HD, HS⟩, Hg⟩, Ho, ⟨%d0, H0⟩, ⟨%d1, H1⟩, ⟨%d2, H2⟩, ⟨%d3, H3⟩⟩
        iapply (kernelRun1_A c (grid1.coords t) _ _ _ _ _ _ _ _ _ _ ((hcond1_0 t).mpr h0) (fun h => h7 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HA HB HC HD HS Hg]
        · isplitl [HA HB HC HD HS]
          · isplitl [HA]; · iexact HA
            isplitl [HB]; · iexact HB
            isplitl [HC]; · iexact HC
            isplitl [HD]; · iexact HD
            iexact HS
          iexact Hg
        isplitl [Ho]; · iexact Ho
        isplitl [H0]; · iexact H0
        isplitl [H1]; · iexact H1
        isplitl [H2]; · iexact H2
        iexists d3; iexact H3
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩⟩
        iapply (kernelRun1_A c (grid1.coords t) _ _ _ _ _ _ _ _ _ _ ((hcond1_0 t).mpr h0) (fun h => h7 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HA HB HC HD HS Hg]
        · isplitl [HA HB HC HD HS]
          · isplitl [HA]; · iexact HA
            isplitl [HB]; · iexact HB
            isplitl [HC]; · iexact HC
            isplitl [HD]; · iexact HD
            iexact HS
          iexact Hg
        isplitl [Ho]; · iexact Ho
        isplitl [H0]; · iexact H0
        isplitl [H1]; · iexact H1
        isplitl [H2]; · iexact H2
        iexists d3; iexact H3
    · have hz : t.val ≠ 0 := fun e => h0 (by rw [e])
      rw [Dat.leavesExact_idle (dat1 V c) 3 t (idleAt1_3 t (fun h => h7 ((hcond1_1 t).mp h))) (noFlush1_3 t (fun h => h7 ((hcond1_1 t).mp h)))]
      rw [acc1_step V c t h0]
      rw [PhiS1_castSucc V c t, PhiS1_pos V c _ _ hz]
      iintro ⟨⟨⟨HA, HB, HC, HD, HS⟩, Hg⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h7 ((hcond1_1 t).mp h)) (iblk1 V c 0 t) (iblk1 V c 1 t) (iblk1 V c 2 t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Cert.Kernel.Hand

end
-- ==== Proof.K.Run.lean ====
/-
  The whole program as a sequence of four segments — region 0, three host operations, region 1, one host operation — and
  the buffer contents at each boundary as a fold from the launch memory: a region leaves its windows' arrays at what its
  write-backs accumulate and every other buffer as it found it; a host stretch applies its operations. Every weakly fair
  execution terminates with each unscoped buffer at the last boundary's contents; the argument arrays are read back
  through the fold to their launch contents, and the result is the last reshape of what region 1 leaves.
-/
import proofs.«154149_j74577812128642_2_alg».proof.Proof.K.QuantBody
import proofs.«154149_j74577812128642_2_alg».proof.Proof.K.MatmulBody
import proofs.«154149_j74577812128642_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host operation: the program's end. -/
abbrev W4 : Dev nD → Valuation τ sig (Elt F) := fun c => StableHlo.after hostOps2 (W3 m ρ c)

/-! ## The arguments end as launched -/

theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of m ρ c main_arg0 (by decide)).trans <| (W1_of_ne m ρ c main_arg0 (by decide)).trans rfl
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of m ρ c main_arg2 (by decide)).trans <| (W1_of_ne m ρ c main_arg2 (by decide)).trans rfl
/-- The weight matrix is region 0's input window: read, never written back. -/
theorem W1_main_arg1 (c : Dev nD) : W1 m ρ c (Proc.devRef .tc main_arg1) = m ((c : Thread nD τ).loc main_arg1) :=
  (W1_arr m ρ c 0).trans (((dat0 (V0 m ρ) c).arrAt_in 0 rfl _).trans ((A_eq0 (V0 m ρ) c 0).trans rfl))
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_of m ρ c main_arg1 (by decide)).trans <| W1_main_arg1 m ρ c

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant starts as the
    untouched scoped rest (`hin1`) and gives it back after the last point (`hout1`). -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest spec1 c ∗ ∃ r, prngReg c r) : sProp 𝕄) ⊢ (pdats m ρ 1 c).Φ 0 := by
      have h := hin1 (V2 m ρ) c; unfold Pipeline.ΦA at h; exact h
    iintro ⟨Hp, -, Hr⟩
    iapply h1
    isplitl [Hr]; · iexact Hr
    iexact Hp
  hout c := by
    have h2 : (pdats m ρ 1 c).Φ (Fin.last _) ⊢ (iprop(Pipeline.scopedRest spec1 c ∗ ∃ r, prngReg c r) : sProp 𝕄) := by
      have h := hout1 (V2 m ρ) c; unfold Pipeline.ΦA at h; exact h
    rw [Pipeline.ownSems0_none]
    iintro HΦ
    ihave Hsr := h2 $$ HΦ
    icases Hsr with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v5 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.KI.QuantBody.lean ====
/-
  Region 0, the quantise/restore pass over the weight matrix, as the pipeline runs it: at each of its 64 grid points the
  body reads one slab of 256 rows through the input window and writes the slab's quantised-and-restored values through
  the output window. Stated at a parameter `V`: the buffer contents when the region is entered. What the output
  window's buffer holds after the body at a point is the body's one store read back over the input slab.
-/
import proofs.«154149_j74577812128642_2_alg».proof.Proof.Gen.KernelIdeal.Launch
import proofs.«154149_j74577812128642_2_alg».proof.Proof.Gen.KernelIdeal.Skeleton
import proofs.«154149_j74577812128642_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the point's slab, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole slab as a rectangle: the body's one load and its one store go through it. -/
abbrev rq : Rect S256x4096 := Rect.unit (s := S256x4096) ![0, 0] S256x4096.size inb_S256x4096_S256x4096_0_0

/-- The output window's buffer after the body: the one store, over the loaded slab. -/
def out0_1 (x0 : Vec F S256x4096 .f32) : Vec F S256x4096 .bf16 :=
  View.canon [⟨rq, k0_pay1 (View.ld x0 rq)⟩]

/-- The store covers the buffer. -/
theorem cover0_1 (p0 : Vec F S256x4096 .bf16) (y : S256x4096.Idx) :
    ∃ pc ∈ ([⟨rq, p0⟩] : List (View.Piece (Elt F) S256x4096 .bf16)), y ∈ pc.1.set :=
  View.cover_of_tiled [⟨rq, p0⟩] S256x4096.size (by rfl) y

set_option maxHeartbeats 1000000 in
/-- The body on whole staging buffers: the input's contents stay, the output's become `out0_1` of them. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core `c`: its arrays as the region finds them; after the body the input buffer at the
    point's slab and the output buffer at `out0_1` of it; the invariant the untouched scoped rest and generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.MatmulBody.lean ====
/-
  Region 1, the matmul pass, as the pipeline runs it on its 8 × 8 × 8 grid (order (i, j, k), k innermost, so that the
  position t has k = t mod 8). At each point the body adds to a 1024 × 2048 accumulator the product of a 1024 × 512 block
  of the activations with a 2048 × 512 block of the restored weight; at k = 0 it first resets the accumulator to zeros,
  and at k = 7 it stores the accumulator plus the bias row into the output tile. The accumulator lives in a buffer of the
  kernel's own that is carried from point to point, so the region's invariant names its contents: after position n it is
  `acc1 n`, the sum so far over the current output tile's k-blocks. Three cases meet the grid: k = 0 (reset, then add),
  0 < k < 7 (add) and k = 7 (add, then store the tile); the output window is idle, and its block is not written back,
  except at k = 7.

  Everything here is stated at a parameter `V`, the buffer contents when the region is entered, and at any float
  instance.
-/
import proofs.«154149_j74577812128642_2_alg».proof.Proof.Gen.KernelIdeal.Launch
import proofs.«154149_j74577812128642_2_alg».proof.Proof.Gen.KernelIdeal.Skeleton
import proofs.«154149_j74577812128642_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first branch's condition (the accumulator is reset): the innermost grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the output tile is stored): the innermost grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The whole accumulator tile as a rectangle; its offsets are zero, so one store through it covers the tile. -/
abbrev rAcc : Rect S1024x2048 := Rect.unit (s := S1024x2048) ![0, 0] S1024x2048.size inb_S1024x2048_S1024x2048_0_0
theorem hzAcc : (![0, 0] : Fin S1024x2048.rank → Nat) = fun _ => 0 := by funext a; fin_cases a <;> rfl
theorem hzX : (![0, 0] : Fin S1024x512.rank → Nat) = fun _ => 0 := by funext a; fin_cases a <;> rfl
theorem hzW : (![0, 0] : Fin S2048x512.rank → Nat) = fun _ => 0 := by funext a; fin_cases a <;> rfl
theorem hzB : (![0, 0] : Fin S1x2048.rank → Nat) = fun _ => 0 := by funext a; fin_cases a <;> rfl

theorem coverAcc (p0 : Vec F S1024x2048 .f32) (L : List (View.Piece (Elt F) S1024x2048 .f32)) (y : S1024x2048.Idx) :
    ∃ pc ∈ ((⟨rAcc, p0⟩ : View.Piece (Elt F) S1024x2048 .f32) :: L), y ∈ pc.1.set :=
  ⟨_, List.mem_cons_self, View.mem_set_unit_zero hzAcc inb_S1024x2048_S1024x2048_0_0 y⟩

/-! ## The body on any whole memrefs, case by case -/

set_option maxHeartbeats 1000000 in
/-- Case B (0 < k < 7): neither branch is taken. The accumulator, held at `xs`, gains this point's product; the output
    window's buffer is handed back as it was found. -/
theorem kernelRun1_B (c : Dev nD) (i : grid1.Coords)
    (arg3 : Memref sig .tc .vmem S1024x512 .bf16) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole)
    (hc0 : ¬cond1_0 i) (hc1 : ¬cond1_1 i)
    (x0 : Vec F S1024x512 .bf16) (x1 : Vec F S2048x512 .bf16) (x2 : Vec F S1x2048 .f32) (xi3 : Vec F S1024x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  refine (View.read_writes_eq_canon _ _ _ (coverAcc _ _)).trans ?_
  refine (View.canon_cons_unit_zero hzAcc _ _ _).trans ?_
  exact congr (congr (congrArg k1_pay2 (View.ld_unit_zero hzAcc _ _)) (View.ld_unit_zero hzX _ _)) (View.ld_unit_zero hzW _ _)

set_option maxHeartbeats 1000000 in
/-- Case A (k = 0): the first branch is taken, the second is not. Whatever the accumulator held, it is reset to zeros and
    then gains this point's product; the output window's buffer is handed back as it was found. -/
theorem kernelRun1_A (c : Dev nD) (i : grid1.Coords)
    (arg3 : Memref sig .tc .vmem S1024x512 .bf16) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole)
    (hc0 : cond1_0 i) (hc1 : ¬cond1_1 i)
    (x0 : Vec F S1024x512 .bf16) (x1 : Vec F S2048x512 .bf16) (x2 : Vec F S1x2048 .f32) (xi3 : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  refine (View.read_writes_eq_canon _ _ _ (coverAcc _ _)).trans ?_
  refine (View.canon_cons_unit_zero hzAcc _ _ _).trans ?_
  first
    | exact congr (congr (congrArg k1_pay2 (View.readCov_unit_zero _ hzAcc _ _)) (View.ld_unit_zero hzX _ _)) (View.ld_unit_zero hzW _ _)
    | fail "A-pay"

set_option maxHeartbeats 1000000 in
/-- Case C (k = 7): the second branch is taken. The accumulator, held at `xs`, gains this point's product, and the
    output window's buffer, whatever it held, is left at the accumulator plus the bias row. -/
theorem kernelRun1_C (c : Dev nD) (i : grid1.Coords)
    (arg3 : Memref sig .tc .vmem S1024x512 .bf16) (harg3 : arg3.IsWhole) (arg4 : Memref sig .tc .vmem S2048x512 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole)
    (hc0 : ¬cond1_0 i) (hc1 : cond1_1 i)
    (x0 : Vec F S1024x512 .bf16) (x1 : Vec F S2048x512 .bf16) (x2 : Vec F S1x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (View.read_writes_eq_canon _ _ _ (coverAcc _ _)).trans ?_
    refine (View.canon_cons_unit_zero hzAcc _ _ _).trans ?_
    first
      | exact congr (congrArg k1_pay3 ((View.readCov_unit_zero _ hzAcc _ _).trans (congr (congr (congrArg k1_pay2 (View.ld_unit_zero hzAcc _ _)) (View.ld_unit_zero hzX _ _)) (View.ld_unit_zero hzW _ _)))) (View.ld_unit_zero hzB _ _)
      | fail "C-pay"
  iexists _; isplitr
  swap; · iexact HS
  ipureintro
  refine (View.read_writes_eq_canon _ _ _ (coverAcc _ _)).trans ?_
  refine (View.canon_cons_unit_zero hzAcc _ _ _).trans ?_
  exact congr (congr (congrArg k1_pay2 (View.ld_unit_zero hzAcc _ _)) (View.ld_unit_zero hzX _ _)) (View.ld_unit_zero hzW _ _)

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current buffer holds the point's block, fetched at that point or not: where it is not fetched
    (the bias row, away from k = 0) the block index has not moved since the point before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- The accumulator after the body at position n: the sum so far over the current output tile's k-blocks (restarted from zeros where n % 8 = 0). -/
def acc1 (c : Dev nD) : (n : ℕ) → n < cfg1.N → Vec F S1024x2048 .f32
  | 0, hn => k1_pay2 (k1_pay1 (F := F)) (iblk1 V c 0 ⟨0, hn⟩) (iblk1 V c 1 ⟨0, hn⟩)
  | n + 1, hn => k1_pay2 (if (n + 1) % 8 = 0 then k1_pay1 (F := F) else acc1 c n (Nat.lt_of_succ_lt hn)) (iblk1 V c 0 ⟨n + 1, hn⟩) (iblk1 V c 1 ⟨n + 1, hn⟩)

/-- At a point with k = 0 the sum restarts: zeros plus this point's product. -/
theorem acc1_reset (c : Dev nD) (t : Fin cfg1.N) (h0 : t.val % 8 = 0) :
    acc1 V c t.val t.isLt = k1_pay2 (k1_pay1 (F := F)) (iblk1 V c 0 t) (iblk1 V c 1 t) := by
  obtain ⟨n, hn⟩ := t
  cases n with
  | zero => rfl
  | succ n => exact congrArg (fun a => k1_pay2 a (iblk1 V c 0 ⟨n + 1, hn⟩) (iblk1 V c 1 ⟨n + 1, hn⟩)) (if_pos h0)

/-- At a point with k > 0 the sum continues: what the point before left plus this point's product. -/
theorem acc1_step (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact congrArg (fun a => k1_pay2 a (iblk1 V c 0 ⟨n + 1, hn⟩) (iblk1 V c 1 ⟨n + 1, hn⟩)) (if_neg h0)

/-! ## The region's invariant -/

/-- The accumulator's buffer, passed to the body beside the windows. -/
abbrev scM1 : Memref sig .tc .vmem S1024x2048 .f32 := Memref.whole cc1_scratch0

/-- A scoped buffer of the core, whole, at some contents. -/
abbrev anyAt1 (c : Dev nD) (b : Ref sig .tc) : sProp 𝕄 :=
  iprop(∃ f : Buf (Elt F) ((c : Thread nD τ).loc b), ((c : Thread nD τ).loc b) ↦{fullShare} f)

/-- What the region is entered with, the accumulator's buffer spelt as a memref owned at some contents. -/
theorem PhiA1_eq (c : Dev nD) :
    (Pipeline.ΦA spec1 c : sProp 𝕄)
      = iprop((anyAt1 (F := F) c cc0_stg0_0 ∗ anyAt1 (F := F) c cc0_stg0_1 ∗ anyAt1 (F := F) c cc0_stg1_0 ∗ anyAt1 (F := F) c cc0_stg1_1 ∗ (∃ d, owns (c : Thread nD τ) scM1 fullShare d)) ∗ (∃ r, prngReg c r)) := by
  unfold Pipeline.ΦA; rw [scopedRest1_eq]; simp only [scM1, owns_whole]; try rfl

/-- The invariant before position `n`: before the first point, what the region is entered with; afterwards the other four
    scoped buffers at anything, the accumulator's buffer at what the point before left in it, and the core's random-number register
    at some state. -/
def PhiS1 (c : Dev nD) : (n : ℕ) → n ≤ cfg1.N → sProp 𝕄
  | 0, _ => Pipeline.ΦA spec1 c
  | n + 1, hn => iprop((anyAt1 (F := F) c cc0_stg0_0 ∗ anyAt1 (F := F) c cc0_stg0_1 ∗ anyAt1 (F := F) c cc0_stg1_0 ∗ anyAt1 (F := F) c cc0_stg1_1 ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((anyAt1 (F := F) c cc0_stg0_0 ∗ anyAt1 (F := F) c cc0_stg0_1 ∗ anyAt1 (F := F) c cc0_stg1_0 ∗ anyAt1 (F := F) c cc0_stg1_1 ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop((anyAt1 (F := F) c cc0_stg0_0 ∗ anyAt1 (F := F) c cc0_stg0_1 ∗ anyAt1 (F := F) c cc0_stg1_0 ∗ anyAt1 (F := F) c cc0_stg1_1 ∗ owns (c : Thread nD τ) scM1 fullShare (acc1 V c (n - 1) (by omega))) ∗ (∃ r, prngReg c r)) := by
  cases n with
  | zero => exact absurd rfl hz
  | succ n => rfl

/-! ## The pipeline's proof data -/

/-- The proof data of the matmul region on core `c`: the arrays as the region finds them; after the body at point `t`
    each input's buffer at its block and the output's at the accumulator plus the bias row; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the innermost coordinate k = t mod 8 says which case the
    point is in. The invariant hands the body the accumulator at what the point before left (at anything before the first
    point, and at any point with k = 0 the body resets it whatever it held) and takes it back at this point's sum. Where
    k < 7 the output window is idle and not written back: its buffer goes back as found; at k = 7 it is left at the sum plus
    the bias row. The other scoped buffers, the core's random-number register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h7 : t.val % 8 = 7
  · have h0 : ¬t.val % 8 = 0 := by omega
    have hz : t.val ≠ 0 := fun e => by rw [e] at h7; exact absurd h7 (by decide)
    rw [show (dat1 V c).leavesExact 3 t = owns (c : Thread nD τ) (st1_3 t) fullShare ((dat1 V c).after 3 t) from by
      unfold Dat.leavesExact; rw [liveAt1_3 t ((hcond1_1 t).mpr h7)], after1_3]
    rw [acc1_step V c t h0]
    rw [PhiS1_castSucc V c t, PhiS1_pos V c _ _ hz]
    iintro ⟨⟨⟨HA, HB, HC, HD, HS⟩, Hg⟩, Ho, ⟨%d0, H0⟩, ⟨%d1, H1⟩, ⟨%d2, H2⟩, ⟨%d3, H3⟩⟩
    iapply (kernelRun1_C c (grid1.coords t) _ _ _ _ _ _ _ _ _ _ (fun h => h0 ((hcond1_0 t).mp h)) ((hcond1_1 t).mpr h7) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HA HB HC HD HS Hg]
    · isplitl [HA HB HC HD HS]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    isplitl [H2]; · iexact H2
    iexact H3
  · by_cases h0 : t.val % 8 = 0
    · rw [Dat.leavesExact_idle (dat1 V c) 3 t (idleAt1_3 t (fun h => h7 ((hcond1_1 t).mp h))) (noFlush1_3 t (fun h => h7 ((hcond1_1 t).mp h)))]
      rw [acc1_reset V c t h0]
      by_cases hz : t.val = 0
      · rw [PhiS1_castSucc V c t, PhiS1_zero V c _ _ hz, PhiA1_eq]
        iintro ⟨⟨⟨HA, HB, HC, HD, HS⟩, Hg⟩, Ho, ⟨%d0, H0⟩, ⟨%d1, H1⟩, ⟨%d2, H2⟩, ⟨%d3, H3⟩⟩
        iapply (kernelRun1_A c (grid1.coords t) _ _ _ _ _ _ _ _ _ _ ((hcond1_0 t).mpr h0) (fun h => h7 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HA HB HC HD HS Hg]
        · isplitl [HA HB HC HD HS]
          · isplitl [HA]; · iexact HA
            isplitl [HB]; · iexact HB
            isplitl [HC]; · iexact HC
            isplitl [HD]; · iexact HD
            iexact HS
          iexact Hg
        isplitl [Ho]; · iexact Ho
        isplitl [H0]; · iexact H0
        isplitl [H1]; · iexact H1
        isplitl [H2]; · iexact H2
        iexists d3; iexact H3
      · rw [PhiS1_castSucc V c t, PhiS1_pos V c _ _ hz]
        iintro ⟨⟨⟨HA, HB, HC, HD, HS⟩, Hg⟩, Ho, ⟨%d0, H0⟩, ⟨%d1, H1⟩, ⟨%d2, H2⟩, ⟨%d3, H3⟩⟩
        iapply (kernelRun1_A c (grid1.coords t) _ _ _ _ _ _ _ _ _ _ ((hcond1_0 t).mpr h0) (fun h => h7 ((hcond1_1 t).mp h)) (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HA HB HC HD HS Hg]
        · isplitl [HA HB HC HD HS]
          · isplitl [HA]; · iexact HA
            isplitl [HB]; · iexact HB
            isplitl [HC]; · iexact HC
            isplitl [HD]; · iexact HD
            iexact HS
          iexact Hg
        isplitl [Ho]; · iexact Ho
        isplitl [H0]; · iexact H0
        isplitl [H1]; · iexact H1
        isplitl [H2]; · iexact H2
        iexists d3; iexact H3
    · have hz : t.val ≠ 0 := fun e => h0 (by rw [e])
      rw [Dat.leavesExact_idle (dat1 V c) 3 t (idleAt1_3 t (fun h => h7 ((hcond1_1 t).mp h))) (noFlush1_3 t (fun h => h7 ((hcond1_1 t).mp h)))]
      rw [acc1_step V c t h0]
      rw [PhiS1_castSucc V c t, PhiS1_pos V c _ _ hz]
      iintro ⟨⟨⟨HA, HB, HC, HD, HS⟩, Hg⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h7 ((hcond1_1 t).mp h)) (iblk1 V c 0 t) (iblk1 V c 1 t) (iblk1 V c 2 t) ((dat1 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Cert.KernelIdeal.Hand

end
-- ==== Proof.KI.Run.lean ====
/-
  The whole program as a sequence of four segments — region 0, three host operations, region 1, one host operation — and
  the buffer contents at each boundary as a fold from the launch memory: a region leaves its windows' arrays at what its
  write-backs accumulate and every other buffer as it found it; a host stretch applies its operations. Every weakly fair
  execution terminates with each unscoped buffer at the last boundary's contents; the argument arrays are read back
  through the fold to their launch contents, and the result is the last reshape of what region 1 leaves.
-/
import proofs.«154149_j74577812128642_2_alg».proof.Proof.KI.QuantBody
import proofs.«154149_j74577812128642_2_alg».proof.Proof.KI.MatmulBody
import proofs.«154149_j74577812128642_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host operation: the program's end. -/
abbrev W4 : Dev nD → Valuation τ sig (Elt F) := fun c => StableHlo.after hostOps2 (W3 m ρ c)

/-! ## The arguments end as launched -/

theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of m ρ c main_arg0 (by decide)).trans <| (W1_of_ne m ρ c main_arg0 (by decide)).trans rfl
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of m ρ c main_arg2 (by decide)).trans <| (W1_of_ne m ρ c main_arg2 (by decide)).trans rfl
/-- The weight matrix is region 0's input window: read, never written back. -/
theorem W1_main_arg1 (c : Dev nD) : W1 m ρ c (Proc.devRef .tc main_arg1) = m ((c : Thread nD τ).loc main_arg1) :=
  (W1_arr m ρ c 0).trans (((dat0 (V0 m ρ) c).arrAt_in 0 rfl _).trans ((A_eq0 (V0 m ρ) c 0).trans rfl))
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (W2_of m ρ c main_arg1 (by decide)).trans <| W1_main_arg1 m ρ c

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant starts as the
    untouched scoped rest (`hin1`) and gives it back after the last point (`hout1`). -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest spec1 c ∗ ∃ r, prngReg c r) : sProp 𝕄) ⊢ (pdats m ρ 1 c).Φ 0 := by
      have h := hin1 (V2 m ρ) c; unfold Pipeline.ΦA at h; exact h
    iintro ⟨Hp, -, Hr⟩
    iapply h1
    isplitl [Hr]; · iexact Hr
    iexact Hp
  hout c := by
    have h2 : (pdats m ρ 1 c).Φ (Fin.last _) ⊢ (iprop(Pipeline.scopedRest spec1 c ∗ ∃ r, prngReg c r) : sProp 𝕄) := by
      have h := hout1 (V2 m ρ) c; unfold Pipeline.ΦA at h; exact h
    rw [Pipeline.ownSems0_none]
    iintro HΦ
    ihave Hsr := h2 $$ HΦ
    icases Hsr with ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v5 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Spec.lean ====
/-
  What the two programs compute, as one function of the three argument arrays over the extended reals.

  The weight matrix `W` (16384 × 4096) is cut into 128 × 128 blocks. Block (p, q) has the scale
  `s(p, q) = max(M(p, q), ε) / 448`, where `M(p, q)` is the largest absolute value in the block and `ε`, `448` are the
  two float literals both programs carry. An entry is quantised and restored within its block:
  `wq(o, i) = clip(W(o, i) / s, −448, 448) · s` with `s` the scale of the block holding `(o, i)`. The result is
  `G(b, t, o) = Σ_k X(b, t, k) · wq(o, k) + bias(o)`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The weight matrix's shape, the activations', the bias's and the result's. -/
abbrev SW : Shape := ⟨2, ![16384, 4096]⟩
abbrev SX : Shape := ⟨3, ![4, 2048, 4096]⟩
abbrev SB : Shape := ⟨1, ![16384]⟩
abbrev SY : Shape := ⟨3, ![4, 2048, 16384]⟩

/-- Row `r` of block-row `p`, column `l` of block-column `q`. -/
def row (p : Fin 128) (r : Fin 128) : Fin 16384 := ⟨p.val * 128 + r.val, by omega⟩
def col (q : Fin 32) (l : Fin 128) : Fin 4096 := ⟨q.val * 128 + l.val, by omega⟩
/-- The block-row of a row, the block-column of a column. -/
def blkRow (o : Fin 16384) : Fin 128 := ⟨o.val / 128, by omega⟩
def blkCol (i : Fin 4096) : Fin 32 := ⟨i.val / 128, by omega⟩

/-- The three float literals, as the extended reals their words denote. -/
def eps : EReal := Ideal.ofBits .f32 0x2B8CBCCC#32
def c448 : EReal := Ideal.ofBits .f32 0x43E00000#32
def cm448 : EReal := Ideal.ofBits .f32 0xC3E00000#32

/-- The largest absolute value in block (p, q): the supremum over the block's 128 × 128 entries. -/
def blkMax (W : SW.Idx → EReal) (p : Fin 128) (q : Fin 32) : EReal :=
  Finset.univ.sup fun rl : Fin 128 × Fin 128 =>
    max (W (ix2 (row p rl.1) (col q rl.2))) (-(W (ix2 (row p rl.1) (col q rl.2))))

/-- The block's scale. -/
def scale (W : SW.Idx → EReal) (p : Fin 128) (q : Fin 32) : EReal :=
  Ideal.div (max (blkMax W p q) eps) c448

/-- An entry quantised and restored within its block. -/
def wq (W : SW.Idx → EReal) (o : Fin 16384) (i : Fin 4096) : EReal :=
  min c448 (max cm448 (Ideal.div (W (ix2 o i)) (scale W (blkRow o) (blkCol i)))) * scale W (blkRow o) (blkCol i)

/-- The result at batch `b`, position `t`, output feature `o`. -/
def Gat (X : SX.Idx → EReal) (W : SW.Idx → EReal) (bias : SB.Idx → EReal) (b : Fin 4) (t : Fin 2048) (o : Fin 16384) : EReal :=
  (∑ k : Fin 4096, X (ix3 b t k) * wq W o k) + bias (ix1 o)

/-- The result array. -/
def G (X : SX.Idx → EReal) (W : SW.Idx → EReal) (bias : SB.Idx → EReal) : SY.Idx → EReal :=
  fun j => Gat X W bias (j 0) (j 1) (j 2)

end Cert.Spec

end
-- ==== Proof.QuantValue.lean ====
/-
  The quantise/restore region's stored value, read at one entry, over the extended reals.

  Grid point t holds the 256 × 4096 slab x of rows 256t … 256t + 255 of the weight matrix W. The slab is viewed as
  [2, 128, 32, 128]: entry (a, r, q, l) is x(a·128 + r, q·128 + l), row r and lane l of the slab's block (a, q), which is
  block (2t + a, q) of W. The largest absolute value of a block is taken in two steps, the maximum over its rows r and
  then over its lanes l, each from −∞; a supremum over a product of two finite sets is the iterated supremum, so the two
  steps give the block's supremum over its 128 × 128 entries. The block's scale is max(that, ε) / 448, repeated over the
  block; each entry is divided by it, clipped to [−448, 448], and multiplied by it again. The narrowing of the result's
  format is the identity on extended reals. Entry (y0, y1) of the slab lies in block (y0 / 128, y1 / 128), and the
  block-row of row 256t + y0 of W is (256t + y0) / 128 = 2t + y0 / 128.
-/
import proofs.«154149_j74577812128642_2_alg».proof.Proof.Spec
import proofs.«154149_j74577812128642_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Cert.Spec Idealize.ShloMosaic Idealize.ShloMosaic.ValueIdx

/-- The word of f32's negative infinity denotes the least extended real. -/
theorem ofBits_neg_inf : Ideal.ofBits .f32 0xFF800000#32 = ⊥ := by
  simp [Ideal.ofBits, Ideal.ieee]

/-- A fold of `max` from the least element over every coordinate is the supremum over them. -/
theorem fold_max_eq_sup {n : ℕ} (f : Fin n → EReal) (b : EReal) (hb : b = ⊥) :
    (Finset.univ : Finset (Fin n)).fold max b f = Finset.univ.sup f := by
  subst hb; rfl

/-- The maximum over the rows r of a [2, 128, 32, 128] array, at (a, q, l). -/
theorem red1_apply (v : FVec Ideal S2x128x32x128 .f32) (hφ : FKind.Formats .f32)
    (hacc : (0xFF800000#32 : BitVec 32) = FKind.maximumf.neutral .f32 hφ) (a : Fin 2) (q : Fin 32) (l : Fin 128) :
    multiReduction .maximumf [1] S2x32x128 v 0xFF800000#32 reduces_S2x128x32x128_S2x32x128 hφ hacc (ix3 a q l)
      = Finset.univ.sup fun r : Fin 128 => v (ix4 a r q l) := by
  refine (Ideal.multiReduction_maximumf_single v _ reduces_S2x128x32x128_S2x32x128 hφ hacc (ix3 a q l)).trans ?_
  refine (fold_max_eq_sup _ _ ofBits_neg_inf).trans ?_
  refine congrArg Finset.univ.sup (funext fun r => congrArg v (funext fun c => Fin.ext ?_))
  match c with
  | ⟨0, _⟩ => rfl
  | ⟨1, _⟩ => rfl
  | ⟨2, _⟩ => rfl
  | ⟨3, _⟩ => rfl

/-- The maximum over the lanes l of a [2, 32, 128] array, at (a, q). -/
theorem red2_apply (v : FVec Ideal S2x32x128 .f32) (hφ : FKind.Formats .f32)
    (hacc : (0xFF800000#32 : BitVec 32) = FKind.maximumf.neutral .f32 hφ) (a : Fin 2) (q : Fin 32) :
    multiReduction .maximumf [2] S2x32 v 0xFF800000#32 reduces_S2x32x128_S2x32 hφ hacc (ix2 a q)
      = Finset.univ.sup fun l : Fin 128 => v (ix3 a q l) := by
  refine (Ideal.multiReduction_maximumf_single v _ reduces_S2x32x128_S2x32 hφ hacc (ix2 a q)).trans ?_
  refine (fold_max_eq_sup _ _ ofBits_neg_inf).trans ?_
  refine congrArg Finset.univ.sup (funext fun l => congrArg v (funext fun c => Fin.ext ?_))
  match c with
  | ⟨0, _⟩ => rfl
  | ⟨1, _⟩ => rfl
  | ⟨2, _⟩ => rfl

/-- Two rank-2 indices with equal coordinates are equal. -/
theorem ix2_congr {n0 n1 : ℕ} {a a' : Fin n0} {b b' : Fin n1} (ha : a.val = a'.val) (hb : b.val = b'.val) :
    ix2 a b = ix2 a' b' := by
  obtain rfl := Fin.ext ha
  obtain rfl := Fin.ext hb
  rfl

/-- The slab viewed as [2, 128, 32, 128]: entry (a, r, q, l) is the slab's entry (a·128 + r, q·128 + l). -/
theorem cast4_apply (x : Vec Ideal S256x4096 .f32) (a : Fin 2) (r : Fin 128) (q : Fin 32) (l : Fin 128) :
    shapeCast S2x128x32x128 x shapeCasts_S256x4096_S2x128x32x128 (ix4 a r q l)
      = x (ix2 (⟨a.val * 128 + r.val, by omega⟩ : Fin 256) (⟨q.val * 128 + l.val, by omega⟩ : Fin 4096)) :=
  shapeCast_apply x _ _ _ (by
    rw [Shape.rowMajor_val_two, Shape.rowMajor_val_four]
    show (a.val * 128 + r.val) * 4096 + (q.val * 128 + l.val) = ((a.val * 128 + r.val) * 32 + q.val) * 128 + l.val
    omega)

/-- The same view read at the place of the slab's entry (y0, y1): (y0 / 128, y0 % 128, y1 / 128, y1 % 128). -/
theorem cast4_at (x : Vec Ideal S256x4096 .f32) (y0 : Fin 256) (y1 : Fin 4096) :
    shapeCast S2x128x32x128 x shapeCasts_S256x4096_S2x128x32x128
        (ix4 (⟨y0.val / 128, by omega⟩ : Fin 2) (⟨y0.val % 128, by omega⟩ : Fin 128)
          (⟨y1.val / 128, by omega⟩ : Fin 32) (⟨y1.val % 128, by omega⟩ : Fin 128))
      = x (ix2 y0 y1) :=
  shapeCast_apply x _ _ _ (by
    rw [Shape.rowMajor_val_two, Shape.rowMajor_val_four]
    show y0.val * 4096 + y1.val = ((y0.val / 128 * 128 + y0.val % 128) * 32 + y1.val / 128) * 128 + y1.val % 128
    omega)

/-- A [2, 128, 32, 128] array viewed as the slab again: entry (y0, y1) is the array's entry
    (y0 / 128, y0 % 128, y1 / 128, y1 % 128). -/
theorem cast2_apply (v : FVec Ideal S2x128x32x128 .f32) (y0 : Fin 256) (y1 : Fin 4096) :
    shapeCast S256x4096 v shapeCasts_S2x128x32x128_S256x4096 (ix2 y0 y1)
      = v (ix4 (⟨y0.val / 128, by omega⟩ : Fin 2) (⟨y0.val % 128, by omega⟩ : Fin 128)
          (⟨y1.val / 128, by omega⟩ : Fin 32) (⟨y1.val % 128, by omega⟩ : Fin 128)) :=
  shapeCast_apply v _ _ _ (by
    rw [Shape.rowMajor_val_four, Shape.rowMajor_val_two]
    show ((y0.val / 128 * 128 + y0.val % 128) * 32 + y1.val / 128) * 128 + y1.val % 128 = y0.val * 4096 + y1.val
    omega)

/-- A [2, 1, 32, 1] array repeated over the rows and lanes of a block: entry (a, r, q, l) is its entry (a, 0, q, 0). -/
theorem bcast4_apply (v : FVec Ideal S2x1x32x1 .f32) (a : Fin 2) (r : Fin 128) (q : Fin 32) (l : Fin 128) :
    broadcastTo S2x128x32x128 v broadcasts_S2x1x32x1_S2x128x32x128 (ix4 a r q l)
      = v (ix4 a (0 : Fin 1) q (0 : Fin 1)) := by
  refine broadcastTo_apply v _ (ix4 a r q l) (ix4 a (0 : Fin 1) q (0 : Fin 1)) fun ax => ?_
  match ax with
  | ⟨0, _⟩ => show a.val = if (2 : ℕ) = 1 then 0 else a.val; rw [if_neg (by decide)]
  | ⟨1, _⟩ => show 0 = if (1 : ℕ) = 1 then 0 else r.val; rw [if_pos rfl]
  | ⟨2, _⟩ => show q.val = if (32 : ℕ) = 1 then 0 else q.val; rw [if_neg (by decide)]
  | ⟨3, _⟩ => show 0 = if (1 : ℕ) = 1 then 0 else l.val; rw [if_pos rfl]

/-- The largest absolute value of each of the slab's 2 × 32 blocks: the maximum over a block's rows, then over its lanes. -/
def bmax (x : Vec Ideal S256x4096 .f32) : FVec Ideal S2x32 .f32 :=
  multiReduction .maximumf [2] S2x32
    (multiReduction .maximumf [1] S2x32x128 (absf (shapeCast S2x128x32x128 x shapeCasts_S256x4096_S2x128x32x128))
      0xFF800000#32 reduces_S2x128x32x128_S2x32x128 (.inl rfl) rfl)
    0xFF800000#32 reduces_S2x32x128_S2x32 (.inl rfl) rfl

/-- The blocks' scales, laid out [2, 1, 32, 1]. -/
def scl (x : Vec Ideal S256x4096 .f32) : FVec Ideal S2x1x32x1 .f32 :=
  shapeCast S2x1x32x1
    (divf (maximumf (shapeCast S2x32x1 (bmax x) shapeCasts_S2x32_S2x32x1) (broadcast S2x32x1 (Scalar.ofBits .f32 0x2B8CBCCC#32)))
      (broadcast S2x32x1 (Scalar.ofBits .f32 0x43E00000#32)))
    shapeCasts_S2x32x1_S2x1x32x1

/-- The payload over those two arrays. -/
theorem k0_pay1_eq (x : Vec Ideal S256x4096 .f32) :
    k0_pay1 (F := Ideal) x
      = truncf .bf16 (shapeCast S256x4096
          (mulf
            (minimumf (broadcast S2x128x32x128 (Scalar.ofBits .f32 0x43E00000#32))
              (maximumf (broadcast S2x128x32x128 (Scalar.ofBits .f32 0xC3E00000#32))
                (divf (shapeCast S2x128x32x128 x shapeCasts_S256x4096_S2x128x32x128)
                  (broadcastTo S2x128x32x128 (scl x) broadcasts_S2x1x32x1_S2x128x32x128))))
            (broadcastTo S2x128x32x128 (scl x) broadcasts_S2x1x32x1_S2x128x32x128))
          shapeCasts_S2x128x32x128_S256x4096) bitsLt_bf16_f32 := rfl

/-- Block (a, q) of the slab of grid point t is block (2t + a, q) of the weight matrix: the two-step maximum of the
    absolute values is the block's supremum over its 128 × 128 entries. -/
theorem bmax_apply (W : SW.Idx → EReal) (t : Fin 64) (x : Vec Ideal S256x4096 .f32)
    (hx : ∀ (y0 : Fin 256) (y1 : Fin 4096), x (ix2 y0 y1) = W (ix2 (⟨t.val * 256 + y0.val, by omega⟩ : Fin 16384) y1))
    (a : Fin 2) (q : Fin 32) :
    bmax x (ix2 a q) = blkMax W (⟨t.val * 2 + a.val, by omega⟩ : Fin 128) q := by
  unfold bmax
  refine (red2_apply _ _ _ a q).trans ?_
  unfold blkMax
  rw [← Finset.univ_product_univ, Finset.sup_product_right]
  refine congrArg Finset.univ.sup (funext fun l => (red1_apply _ _ _ a q l).trans
    (congrArg Finset.univ.sup (funext fun r => ?_)))
  show max (shapeCast S2x128x32x128 x shapeCasts_S256x4096_S2x128x32x128 (ix4 a r q l))
      (-(shapeCast S2x128x32x128 x shapeCasts_S256x4096_S2x128x32x128 (ix4 a r q l))) = _
  rw [cast4_apply, hx]
  have e : ix2 (⟨t.val * 256 + (a.val * 128 + r.val), by omega⟩ : Fin 16384) (⟨q.val * 128 + l.val, by omega⟩ : Fin 4096)
      = ix2 (row (⟨t.val * 2 + a.val, by omega⟩ : Fin 128) r) (col q l) :=
    ix2_congr (by show t.val * 256 + (a.val * 128 + r.val) = (t.val * 2 + a.val) * 128 + r.val; omega) rfl
  exact congrArg (fun i => max (W i) (-(W i))) e

/-- The scale the payload divides and multiplies by, at any entry (a, r, q, l) of the block view: the scale of block
    (2t + a, q) of the weight matrix. -/
theorem scl_apply (W : SW.Idx → EReal) (t : Fin 64) (x : Vec Ideal S256x4096 .f32)
    (hx : ∀ (y0 : Fin 256) (y1 : Fin 4096), x (ix2 y0 y1) = W (ix2 (⟨t.val * 256 + y0.val, by omega⟩ : Fin 16384) y1))
    (a : Fin 2) (r : Fin 128) (q : Fin 32) (l : Fin 128) :
    broadcastTo S2x128x32x128 (scl x) broadcasts_S2x1x32x1_S2x128x32x128 (ix4 a r q l)
      = scale W (⟨t.val * 2 + a.val, by omega⟩ : Fin 128) q := by
  refine (bcast4_apply (scl x) a r q l).trans ?_
  unfold scl
  refine (shapeCast_apply _ shapeCasts_S2x32x1_S2x1x32x1 (ix4 a (0 : Fin 1) q (0 : Fin 1)) (ix3 a q (0 : Fin 1)) (by
    rw [Shape.rowMajor_val_three, Shape.rowMajor_val_four]
    show (a.val * 32 + q.val) * 1 + 0 = ((a.val * 1 + 0) * 32 + q.val) * 1 + 0
    omega)).trans ?_
  show Ideal.div (max (shapeCast S2x32x1 (bmax x) shapeCasts_S2x32_S2x32x1 (ix3 a q (0 : Fin 1))) eps) c448 = _
  rw [shapeCast_apply (bmax x) shapeCasts_S2x32_S2x32x1 (ix3 a q (0 : Fin 1)) (ix2 a q) (by
    rw [Shape.rowMajor_val_two, Shape.rowMajor_val_three]
    show a.val * 32 + q.val = (a.val * 32 + q.val) * 1 + 0
    omega), bmax_apply W t x hx a q]
  rfl

/-- THE QUANTISE/RESTORE PAYLOAD AT AN ENTRY: where the slab x of grid point t holds rows 256t … 256t + 255 of the weight
    matrix, its entry (y0, y1) is the matrix's entry (256t + y0, y1) quantised and restored within its block. -/
theorem quant_block (W : SW.Idx → EReal) (t : Fin 64) (x : Vec Ideal S256x4096 .f32)
    (hx : ∀ (y0 : Fin 256) (y1 : Fin 4096), x (ix2 y0 y1) = W (ix2 (⟨t.val * 256 + y0.val, by omega⟩ : Fin 16384) y1))
    (y0 : Fin 256) (y1 : Fin 4096) :
    k0_pay1 (F := Ideal) x (ix2 y0 y1) = wq W (⟨t.val * 256 + y0.val, by omega⟩ : Fin 16384) y1 := by
  rw [k0_pay1_eq]
  refine (truncf_apply (ψ := .bf16) _ bitsLt_bf16_f32 (ix2 y0 y1)).trans ?_
  refine (cast2_apply _ y0 y1).trans ?_
  show min c448 (max cm448 (Ideal.div
        (shapeCast S2x128x32x128 x shapeCasts_S256x4096_S2x128x32x128
          (ix4 (⟨y0.val / 128, by omega⟩ : Fin 2) (⟨y0.val % 128, by omega⟩ : Fin 128)
            (⟨y1.val / 128, by omega⟩ : Fin 32) (⟨y1.val % 128, by omega⟩ : Fin 128)))
        (broadcastTo S2x128x32x128 (scl x) broadcasts_S2x1x32x1_S2x128x32x128
          (ix4 (⟨y0.val / 128, by omega⟩ : Fin 2) (⟨y0.val % 128, by omega⟩ : Fin 128)
            (⟨y1.val / 128, by omega⟩ : Fin 32) (⟨y1.val % 128, by omega⟩ : Fin 128)))))
      * broadcastTo S2x128x32x128 (scl x) broadcasts_S2x1x32x1_S2x128x32x128
          (ix4 (⟨y0.val / 128, by omega⟩ : Fin 2) (⟨y0.val % 128, by omega⟩ : Fin 128)
            (⟨y1.val / 128, by omega⟩ : Fin 32) (⟨y1.val % 128, by omega⟩ : Fin 128)) = _
  rw [scl_apply W t x hx, cast4_at, hx]
  have hp : (⟨t.val * 2 + y0.val / 128, by omega⟩ : Fin 128) = blkRow (⟨t.val * 256 + y0.val, by omega⟩ : Fin 16384) :=
    Fin.ext (by show t.val * 2 + y0.val / 128 = (t.val * 256 + y0.val) / 128; omega)
  rw [hp]
  rfl

end Cert.KernelIdeal.PayValue

end
-- ==== Proof.KI.QuantArr.lean ====
/-
  What region 0 leaves in the restored-weight array, at the extended reals. The 64 grid points each write back one slab of
  256 rows; slab `t` holds rows `256·t … 256·t + 255`, and the body's payload on the slab is, entry by entry, the
  quantise-and-restore `wq` of the weight matrix at that row and column (the slab's two block-rows are block-rows `2t` and
  `2t + 1` of the matrix). The slabs tile the array, so it ends holding `wq W` everywhere.
-/
import proofs.«154149_j74577812128642_2_alg».proof.Proof.KI.QuantBody
import proofs.«154149_j74577812128642_2_alg».proof.Proof.Spec
import proofs.«154149_j74577812128642_2_alg».proof.Proof.QuantValue
import Idealize.ShloMosaic.Lib.Pipeline.Value
import Idealize.ShloMosaic.Lib.ValueIdx

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The restored weight as an array: `wq` of the weight matrix, entry by entry. -/
def wqArr (W : SW.Idx → EReal) : S16384x4096.Idx → EReal := fun i => wq W (i 0) (i 1)

/-- A point of region 0's grid as a number below 64. -/
def pt0 (t : Fin cfg0.N) : Fin 64 := ⟨t.val, lt_of_lt_of_eq t.isLt (show cfg0.N = 64 from N_0)⟩

/-- Both windows of region 0 sit at slab `t`, column block 0, at point `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input slab at point `t` is rows `256 t + y0` of the weight matrix as the region finds it. -/
theorem iblk0_apply (c : Dev nD) (t : Fin cfg0.N) (y0 : Fin 256) (y1 : Fin 4096) :
    (iblk0 V c 0 t : Vec Ideal S256x4096 .f32) (ix2 y0 y1)
      = (V c main_arg1 : S16384x4096.Idx → EReal) (ix2 (⟨(pt0 t).val * 256 + y0.val, by omega⟩ : Fin 16384) y1) := by
  obtain ⟨e0, e1, -, -⟩ := idx0 t
  unfold iblk0
  rw [View.read_apply]
  show V c main_arg1 _ = V c main_arg1 _
  congr 1
  funext a
  apply Fin.ext
  match a with
  | ⟨0, _⟩ => show win0_0.index t 0 * 256 + 1 * y0.val = (pt0 t).val * 256 + y0.val; rw [e0]; show t.val * 256 + 1 * y0.val = t.val * 256 + y0.val; omega
  | ⟨1, _⟩ => show win0_0.index t 1 * 4096 + 1 * y1.val = y1.val; rw [e1]; omega

/-- What point `t` writes back is slab `t` of `wq` of the weight matrix. -/
theorem flushed0_eq (c : Dev nD) (t : Fin cfg0.N) :
    (dat0 V c).flushed 1 t = ((cfg0.win 1).blk t).view.read (Elt Ideal) (wqArr (V c main_arg1)) := by
  show (cfg0.win 1).cut (grid0.coords t) ((dat0 V c).after 1 t) = _
  rw [after0_1]
  unfold out0_1
  rw [View.canon_unit_zero hz2]
  simp only [View.ld_unit_zero (S := S256x4096) hz2]
  obtain ⟨-, -, e2, e3⟩ := idx0 t
  funext y
  obtain ⟨y0, y1, rfl⟩ : ∃ (y0 : Fin 256) (y1 : Fin 4096), y = ix2 y0 y1 := ⟨y 0, y 1, eq_ix2 y⟩
  show k0_pay1 (F := Ideal) (iblk0 V c 0 t) (ix2 y0 y1) = wqArr (V c main_arg1) (((cfg0.win 1).blk t).view.emb (ix2 y0 y1))
  refine (Cert.KernelIdeal.PayValue.quant_block (V c main_arg1) (pt0 t) (iblk0 V c 0 t) (fun a b => iblk0_apply V c t a b) y0 y1).trans ?_
  unfold wqArr
  have h0 : (⟨(pt0 t).val * 256 + y0.val, by omega⟩ : Fin 16384) = (((cfg0.win 1).blk t).view.emb (ix2 y0 y1)) 0 := by
    apply Fin.ext
    show (pt0 t).val * 256 + y0.val = win0_1.index t 0 * 256 + 1 * y0.val
    rw [e2]; show t.val * 256 + y0.val = t.val * 256 + 1 * y0.val; omega
  have h1 : y1 = (((cfg0.win 1).blk t).view.emb (ix2 y0 y1)) 1 := by
    apply Fin.ext
    show y1.val = win0_1.index t 1 * 4096 + 1 * y1.val
    rw [e3]; omega
  rw [← h0, ← h1]

/-- An index of the array is in point `t`'s slab iff each coordinate is in the slab's range on its axis. -/
theorem mem_blk0 (t : Fin cfg0.N) (i : S16384x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- The slabs tile the array: row `r` is in slab `r / 256`. -/
theorem cover0 (i : S16384x4096.Idx) : ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 64 := N_0
  let t : Fin cfg0.N := ⟨(i 0).val / 256, by rw [hN]; omega⟩
  obtain ⟨-, -, e2, e3⟩ := idx0 t
  refine ⟨t, flush0_1 t, ?_⟩
  rw [mem_blk0]
  intro a
  match a with
  | ⟨0, _⟩ => show win0_1.index t 0 * 256 ≤ (i 0).val ∧ (i 0).val < win0_1.index t 0 * 256 + 256; rw [e2]; show (i 0).val / 256 * 256 ≤ (i 0).val ∧ (i 0).val < (i 0).val / 256 * 256 + 256; omega
  | ⟨1, _⟩ => show win0_1.index t 1 * 4096 ≤ (i 1).val ∧ (i 1).val < win0_1.index t 1 * 4096 + 4096; rw [e3]; omega

/-- The restored-weight array after region 0. -/
theorem final0 (c : Dev nD) : (dat0 V c).arrAt 1 cfg0.N = wqArr (V c main_arg1) :=
  (dat0 V c).arrAt_eq_of_cover 1 (wqArr (V c main_arg1)) (fun t _ => flushed0_eq V c t) cover0

end Cert.KernelIdeal.Hand

end
-- ==== Proof.MatmulValue.lean ====
/-
  The three values the matrix-product region stores, read at one element, over the extended reals.

  At its first contraction step the region clears its 1024 × 2048 accumulator: every element is 0. At every step it adds to
  the accumulator the product of a 1024 × 512 block A of the activations with a 2048 × 512 block B of the restored weights,
  both contracted along their second axis: element (r, c) gains Σ_k A(r, k) · B(c, k), k over the block's 512 contraction
  coordinates. At its last step it stores the accumulator plus the bias row, the row repeated over the 1024 rows. The last
  statement cuts a sum over 4096 contraction coordinates into 8 consecutive blocks of 512, the order in which the eight
  steps meet them.
-/
import proofs.«154149_j74577812128642_2_alg».proof.Proof.Spec
import proofs.«154149_j74577812128642_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Cert.Spec Idealize.ShloMosaic Idealize.ShloMosaic.ValueIdx

/-- The cleared accumulator: 0 everywhere. -/
theorem pay1_apply (r : Fin 1024) (c : Fin 2048) : k1_pay1 (F := Ideal) (ix2 r c) = 0 := by
  unfold k1_pay1
  rw [shapeCast_self]
  exact Ideal.ofBits_zero_f32

/-- The left operand's row coordinate is the output's row. -/
theorem lhsIdx_0 (i : S1024x2048.Idx) (q : dot_S1024x512_S2048x512_S1024x2048_1_1_0_0_n_n.contr.Idx) : (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- The left operand's column coordinate is the contraction coordinate. -/
theorem lhsIdx_1 (i : S1024x2048.Idx) (q : dot_S1024x512_S2048x512_S1024x2048_1_1_0_0_n_n.contr.Idx) : (dot_S1024x512_S2048x512_S1024x2048_1_1_0_0_n_n.lhsIdx i q 1).val = (q ⟨0, by decide⟩).val :=
  dot_S1024x512_S2048x512_S1024x2048_1_1_0_0_n_n.lhsIdx_val_of_single rfl i q

/-- The right operand's row coordinate is the output's column. -/
theorem rhsIdx_0 (i : S1024x2048.Idx) (q : dot_S1024x512_S2048x512_S1024x2048_1_1_0_0_n_n.contr.Idx) : (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- The right operand's column coordinate is the contraction coordinate. -/
theorem rhsIdx_1 (i : S1024x2048.Idx) (q : dot_S1024x512_S2048x512_S1024x2048_1_1_0_0_n_n.contr.Idx) : (dot_S1024x512_S2048x512_S1024x2048_1_1_0_0_n_n.rhsIdx i q 1).val = (q ⟨0, by decide⟩).val :=
  dot_S1024x512_S2048x512_S1024x2048_1_1_0_0_n_n.rhsIdx_val_of_single rfl i q

/-- The accumulation step at (r, c): the scratch value plus the sum over the block's 512 contraction coordinates of the
    products of row r of the left block and row c of the right block. -/
theorem pay2_apply (s : Vec Ideal S1024x2048 .f32) (a : Vec Ideal S1024x512 .bf16) (b : Vec Ideal S2048x512 .bf16)
    (r : Fin 1024) (c : Fin 2048) :
    k1_pay2 (F := Ideal) s a b (ix2 r c) = s (ix2 r c) + ∑ k : Fin 512, a (ix2 r k) * b (ix2 c k) := by
  unfold k1_pay2
  rw [shapeCast_self, shapeCast_self, shapeCast_self]
  show s (ix2 r c) + FloatOps.matmul (F := Ideal) dot_S1024x512_S2048x512_S1024x2048_1_1_0_0_n_n none a b (constant (F := Ideal) S1024x2048 .f32 0x00000000#32) (ix2 r c) = _
  rw [Ideal.matmul_constant_zero_apply, ← Equiv.sum_comp (contrEquiv1 dot_S1024x512_S2048x512_S1024x2048_1_1_0_0_n_n 512 rfl rfl).symm]
  refine congrArg (s (ix2 r c) + ·) (Finset.sum_congr rfl fun k _ => ?_)
  have hk := contrEquiv1_symm_val dot_S1024x512_S2048x512_S1024x2048_1_1_0_0_n_n 512 rfl rfl k
  have el : dot_S1024x512_S2048x512_S1024x2048_1_1_0_0_n_n.lhsIdx (ix2 r c) ((contrEquiv1 dot_S1024x512_S2048x512_S1024x2048_1_1_0_0_n_n 512 rfl rfl).symm k) = ix2 r k := funext fun ax => Fin.ext (by
    match ax with
    | ⟨0, _⟩ => exact lhsIdx_0 _ _
    | ⟨1, _⟩ => exact (lhsIdx_1 _ _).trans hk)
  have er : dot_S1024x512_S2048x512_S1024x2048_1_1_0_0_n_n.rhsIdx (ix2 r c) ((contrEquiv1 dot_S1024x512_S2048x512_S1024x2048_1_1_0_0_n_n 512 rfl rfl).symm k) = ix2 c k := funext fun ax => Fin.ext (by
    match ax with
    | ⟨0, _⟩ => exact rhsIdx_0 _ _
    | ⟨1, _⟩ => exact (rhsIdx_1 _ _).trans hk)
  rw [el, er]

/-- The stored result at (r, c): the accumulator plus the bias row's entry at column c. -/
theorem pay3_apply (s : Vec Ideal S1024x2048 .f32) (v : Vec Ideal S1x2048 .f32) (r : Fin 1024) (c : Fin 2048) :
    k1_pay3 (F := Ideal) s v (ix2 r c) = s (ix2 r c) + v (ix2 (0 : Fin 1) c) := by
  unfold k1_pay3
  rw [shapeCast_self]
  show s (ix2 r c) + broadcastTo S1024x2048 v broadcasts_S1x2048_S1024x2048 (ix2 r c) = _
  rw [broadcastTo_1b_ab_apply]

/-- A sum over 4096 coordinates is the sum over 8 consecutive blocks of the sums over each block's 512 coordinates:
    coordinate k is block k / 512, place k % 512. -/
theorem sum_blocks (f : Fin 4096 → EReal) :
    (∑ kb : Fin 8, ∑ kk : Fin 512, f ⟨kb.val * 512 + kk.val, by omega⟩) = ∑ k : Fin 4096, f k := by
  rw [← Equiv.sum_comp (finProdFinEquiv (m := 8) (n := 512)) f, Fintype.sum_prod_type]
  refine Finset.sum_congr rfl fun kb _ => Finset.sum_congr rfl fun kk _ => congrArg f (Fin.ext ?_)
  show kb.val * 512 + kk.val = kk.val + 512 * kb.val
  omega

end Cert.KernelIdeal.PayValue

end
-- ==== Proof.KI.MatmulArr.lean ====
/-
  What region 1 leaves in the product array, at the extended reals. Its grid is 8 × 8 × 8 in the order (i, j, k), k fastest:
  point `n` works on output tile (i, j) = (n / 64, n / 8 mod 8) and on the k-block `n mod 8` of the contracted axis. After
  the body at point `n` the accumulator holds, entry by entry, the sum over the k-blocks `0 … n mod 8` of the partial dot
  products (restarted from zero where `n mod 8 = 0`). At `n mod 8 = 7` that is the whole dot product over 4096, the bias row is
  added and the tile is written back; the 64 tiles cover the array.
-/
import proofs.«154149_j74577812128642_2_alg».proof.Proof.KI.MatmulBody
import proofs.«154149_j74577812128642_2_alg».proof.Proof.Spec
import proofs.«154149_j74577812128642_2_alg».proof.Proof.QuantValue
import proofs.«154149_j74577812128642_2_alg».proof.Proof.MatmulValue
import Idealize.ShloMosaic.Lib.Pipeline.Value
import Idealize.ShloMosaic.Lib.ValueIdx

noncomputable section

namespace Cert.KernelIdeal.Hand

open Cert.KernelIdeal Cert.KernelIdeal.Gen Cert.Spec Cert.KernelIdeal.PayValue
open Idealize.ShloMosaic Idealize.ShloMosaic.TcCoe Idealize.ShloMosaic.ValueIdx Idealize.SL.Sem
open Idealize.ShloMosaic.Pipeline (Dat)

/-- Row `row` of `A` against row `col` of `B` over the 4096 contracted entries. -/
def dot4096 (A : S8192x4096.Idx → EReal) (B : S16384x4096.Idx → EReal) (row : Fin 8192) (col : Fin 16384) : EReal :=
  ∑ k : Fin 4096, A (ix2 row k) * B (ix2 col k)

/-- The product array: every row of `A` against every row of `B`, plus the bias row. -/
def prodArr (A : S8192x4096.Idx → EReal) (B : S16384x4096.Idx → EReal) (bias : S1x16384.Idx → EReal) : S8192x16384.Idx → EReal :=
  fun i => dot4096 A B (i 0) (i 1) + bias (ix2 (0 : Fin 1) (i 1))

/-- One row of a left block against one row of a right block over the block's 512 contracted entries. -/
def dotRow (a : Vec Ideal S1024x512 .bf16) (b : Vec Ideal S2048x512 .bf16) (r : Fin 1024) (cc : Fin 2048) : EReal :=
  ∑ k : Fin 512, a (ix2 r k) * b (ix2 cc k)

/-- The partial dot product of k-block `kb` for entry (r, cc) of the tile of group `g` (tile-row `g / 8`, tile-column `g mod 8`). -/
def part (A : S8192x4096.Idx → EReal) (B : S16384x4096.Idx → EReal) (g : ℕ) (hg : g < 64) (kb : Fin 8) (r : Fin 1024) (cc : Fin 2048) : EReal :=
  ∑ kk : Fin 512, A (ix2 (⟨g / 8 * 1024 + r.val, by omega⟩ : Fin 8192) (⟨kb.val * 512 + kk.val, by omega⟩ : Fin 4096))
    * B (ix2 (⟨g % 8 * 2048 + cc.val, by omega⟩ : Fin 16384) (⟨kb.val * 512 + kk.val, by omega⟩ : Fin 4096))

/-- A matmul of two blocks that hold the rows of group `g` and the k-block `kb` is that partial dot product. -/
theorem blocks_dot (A : S8192x4096.Idx → EReal) (B : S16384x4096.Idx → EReal) (g : ℕ) (hg : g < 64) (kb : Fin 8)
    (a : Vec Ideal S1024x512 .bf16) (b : Vec Ideal S2048x512 .bf16)
    (ha : ∀ (r : Fin 1024) (kk : Fin 512), a (ix2 r kk) = A (ix2 (⟨g / 8 * 1024 + r.val, by omega⟩ : Fin 8192) (⟨kb.val * 512 + kk.val, by omega⟩ : Fin 4096)))
    (hb : ∀ (cc : Fin 2048) (kk : Fin 512), b (ix2 cc kk) = B (ix2 (⟨g % 8 * 2048 + cc.val, by omega⟩ : Fin 16384) (⟨kb.val * 512 + kk.val, by omega⟩ : Fin 4096)))
    (r : Fin 1024) (cc : Fin 2048) :
    dotRow a b r cc = part A B g hg kb r cc := by
  unfold part dotRow
  exact Finset.sum_congr rfl fun kk _ => by rw [ha r kk, hb cc kk]

/-- The eight partial dot products of a tile entry add up to its dot product over 4096. -/
theorem parts_sum (A : S8192x4096.Idx → EReal) (B : S16384x4096.Idx → EReal) (g : ℕ) (hg : g < 64) (r : Fin 1024) (cc : Fin 2048) :
    (∑ kb : Fin 8, part A B g hg kb r cc)
      = dot4096 A B (⟨g / 8 * 1024 + r.val, by omega⟩ : Fin 8192) (⟨g % 8 * 2048 + cc.val, by omega⟩ : Fin 16384) := by
  unfold part dot4096
  exact sum_blocks fun k => A (ix2 (⟨g / 8 * 1024 + r.val, by omega⟩ : Fin 8192) k) * B (ix2 (⟨g % 8 * 2048 + cc.val, by omega⟩ : Fin 16384) k)

variable (V : (c : Dev nD) → (b : Ref sig .tc) → Buf (Elt Ideal) ((c : Thread nD τ).loc b))

theorem lt512 (t : Fin cfg1.N) : t.val < 512 := lt_of_lt_of_eq t.isLt (show cfg1.N = 512 from N_1)

/-- Where each window of region 1 sits at point `t`. -/
theorem idx1 : ∀ t : Fin cfg1.N,
    win1_0.index t (0 : Fin 2) = t.val / 64 ∧ win1_0.index t (1 : Fin 2) = t.val % 8
    ∧ win1_1.index t (0 : Fin 2) = t.val / 8 % 8 ∧ win1_1.index t (1 : Fin 2) = t.val % 8
    ∧ win1_2.index t (0 : Fin 2) = 0 ∧ win1_2.index t (1 : Fin 2) = t.val / 8 % 8
    ∧ win1_3.index t (0 : Fin 2) = t.val / 64 ∧ win1_3.index t (1 : Fin 2) = t.val / 8 % 8 :=
  (by decide +kernel : ∀ t : Fin grid1.N, _)

/-- The left block at point `t`: rows of tile-row `t / 64` (group `t / 8`), k-block `t mod 8`. -/
theorem iblk1_0_apply (c : Dev nD) (t : Fin cfg1.N) (r : Fin 1024) (kk : Fin 512) :
    (iblk1 V c 0 t : Vec Ideal S1024x512 .bf16) (ix2 r kk)
      = (V c main_v2 : S8192x4096.Idx → EReal) (ix2 (⟨t.val / 8 / 8 * 1024 + r.val, by have := lt512 t; omega⟩ : Fin 8192) (⟨t.val % 8 * 512 + kk.val, by omega⟩ : Fin 4096)) := by
  obtain ⟨e0, e1, -⟩ := idx1 t
  have := lt512 t
  unfold iblk1
  rw [View.read_apply]
  show V c main_v2 _ = V c main_v2 _
  congr 1
  funext a
  apply Fin.ext
  match a with
  | ⟨0, _⟩ => show win1_0.index t 0 * 1024 + 1 * r.val = t.val / 8 / 8 * 1024 + r.val; rw [e0]; omega
  | ⟨1, _⟩ => show win1_0.index t 1 * 512 + 1 * kk.val = t.val % 8 * 512 + kk.val; rw [e1]; omega

/-- The right block at point `t`: rows of tile-column `t / 8 mod 8`, k-block `t mod 8`. -/
theorem iblk1_1_apply (c : Dev nD) (t : Fin cfg1.N) (cc : Fin 2048) (kk : Fin 512) :
    (iblk1 V c 1 t : Vec Ideal S2048x512 .bf16) (ix2 cc kk)
      = (V c main_v0 : S16384x4096.Idx → EReal) (ix2 (⟨t.val / 8 % 8 * 2048 + cc.val, by omega⟩ : Fin 16384) (⟨t.val % 8 * 512 + kk.val, by omega⟩ : Fin 4096)) := by
  obtain ⟨-, -, e0, e1, -⟩ := idx1 t
  unfold iblk1
  rw [View.read_apply]
  show V c main_v0 _ = V c main_v0 _
  congr 1
  funext a
  apply Fin.ext
  match a with
  | ⟨0, _⟩ => show win1_1.index t 0 * 2048 + 1 * cc.val = t.val / 8 % 8 * 2048 + cc.val; rw [e0]; omega
  | ⟨1, _⟩ => show win1_1.index t 1 * 512 + 1 * kk.val = t.val % 8 * 512 + kk.val; rw [e1]; omega

/-- The bias block at point `t`: the columns of tile-column `t / 8 mod 8`. -/
theorem iblk1_2_apply (c : Dev nD) (t : Fin cfg1.N) (cc : Fin 2048) :
    (iblk1 V c 2 t : Vec Ideal S1x2048 .f32) (ix2 (0 : Fin 1) cc)
      = (V c main_v3 : S1x16384.Idx → EReal) (ix2 (0 : Fin 1) (⟨t.val / 8 % 8 * 2048 + cc.val, by omega⟩ : Fin 16384)) := by
  obtain ⟨-, -, -, -, e0, e1, -⟩ := idx1 t
  unfold iblk1
  rw [View.read_apply]
  show V c main_v3 _ = V c main_v3 _
  congr 1
  funext a
  apply Fin.ext
  match a with
  | ⟨0, _⟩ => show win1_2.index t 0 * 1 + 1 * 0 = 0; rw [e0]
  | ⟨1, _⟩ => show win1_2.index t 1 * 2048 + 1 * cc.val = t.val / 8 % 8 * 2048 + cc.val; rw [e1]; omega

/-- The body's matmul at point `t` is the partial dot product of group `t / 8`, k-block `t mod 8`. -/
theorem point_dot (c : Dev nD) (t : Fin cfg1.N) (r : Fin 1024) (cc : Fin 2048) :
    dotRow (iblk1 V c 0 t) (iblk1 V c 1 t) r cc
      = part (V c main_v2) (V c main_v0) (t.val / 8) (by have := lt512 t; omega) ⟨t.val % 8, by omega⟩ r cc :=
  blocks_dot (V c main_v2) (V c main_v0) (t.val / 8) (by have := lt512 t; omega) ⟨t.val % 8, by omega⟩ (iblk1 V c 0 t) (iblk1 V c 1 t)
    (fun r kk => iblk1_0_apply V c t r kk) (fun cc kk => iblk1_1_apply V c t cc kk) r cc

/-- THE ACCUMULATOR after the body at point `n`: the partial dot products of the k-blocks `0 … n mod 8` of the point's tile. -/
theorem acc1_apply (c : Dev nD) : ∀ (n : ℕ) (hn : n < cfg1.N) (r : Fin 1024) (cc : Fin 2048),
    acc1 V c n hn (ix2 r cc)
      = ∑ kb ∈ Finset.univ.filter (fun kb : Fin 8 => kb.val ≤ n % 8), part (V c main_v2) (V c main_v0) (n / 8) (by have := lt512 ⟨n, hn⟩; simp only at this; omega) kb r cc
  | 0, hn, r, cc => by
    rw [acc1]
    refine (pay2_apply _ (iblk1 V c 0 ⟨0, hn⟩) (iblk1 V c 1 ⟨0, hn⟩) r cc).trans ?_
    rw [pay1_apply, zero_add]
    refine (point_dot V c ⟨0, hn⟩ r cc).trans ?_
    have hf : (Finset.univ.filter (fun kb : Fin 8 => kb.val ≤ 0 % 8)) = {(⟨0, by omega⟩ : Fin 8)} := by
      ext kb; simp only [Finset.mem_filter, Finset.mem_univ, true_and, Finset.mem_singleton, Fin.ext_iff]; omega
    rw [hf, Finset.sum_singleton]
    rfl
  | n + 1, hn, r, cc => by
    rw [acc1]
    refine (pay2_apply _ (iblk1 V c 0 ⟨n + 1, hn⟩) (iblk1 V c 1 ⟨n + 1, hn⟩) r cc).trans ?_
    have hN : n + 1 < 512 := lt512 ⟨n + 1, hn⟩
    refine (congrArg (fun z => _ + z) (point_dot V c ⟨n + 1, hn⟩ r cc)).trans ?_
    by_cases h0 : (n + 1) % 8 = 0
    · rw [if_pos h0, pay1_apply, zero_add]
      have hf : (Finset.univ.filter (fun kb : Fin 8 => kb.val ≤ (n + 1) % 8)) = {(⟨(n + 1) % 8, by omega⟩ : Fin 8)} := by
        ext kb; simp only [Finset.mem_filter, Finset.mem_univ, true_and, Finset.mem_singleton, Fin.ext_iff]; omega
      rw [hf, Finset.sum_singleton]
    · rw [if_neg h0, acc1_apply c n (Nat.lt_of_succ_lt hn) r cc]
      have hg : (n + 1) / 8 = n / 8 := by omega
      have hf : (Finset.univ.filter (fun kb : Fin 8 => kb.val ≤ (n + 1) % 8))
          = insert (⟨(n + 1) % 8, by omega⟩ : Fin 8) (Finset.univ.filter (fun kb : Fin 8 => kb.val ≤ n % 8)) := by
        ext kb; simp only [Finset.mem_filter, Finset.mem_univ, true_and, Finset.mem_insert, Fin.ext_iff]; omega
      have hnot : (⟨(n + 1) % 8, by omega⟩ : Fin 8) ∉ Finset.univ.filter (fun kb : Fin 8 => kb.val ≤ n % 8) := by
        simp only [Finset.mem_filter, Finset.mem_univ, true_and]; omega
      rw [hf, Finset.sum_insert hnot, add_comm]
      simp only [hg]

/-- At the last k-block the accumulator is the whole dot product over the 4096 contracted entries. -/
theorem acc1_last (c : Dev nD) (t : Fin cfg1.N) (h7 : t.val % 8 = 7) (r : Fin 1024) (cc : Fin 2048) :
    acc1 V c t.val t.isLt (ix2 r cc)
      = dot4096 (V c main_v2) (V c main_v0) (⟨t.val / 8 / 8 * 1024 + r.val, by have := lt512 t; omega⟩ : Fin 8192)
          (⟨t.val / 8 % 8 * 2048 + cc.val, by omega⟩ : Fin 16384) := by
  rw [acc1_apply V c t.val t.isLt r cc]
  have hf : (Finset.univ.filter (fun kb : Fin 8 => kb.val ≤ t.val % 8)) = Finset.univ := by
    ext kb; simp only [Finset.mem_filter, Finset.mem_univ, true_and, iff_true]; have := kb.isLt; omega
  rw [hf]
  exact parts_sum (V c main_v2) (V c main_v0) (t.val / 8) (by have := lt512 t; omega) r cc

/-- What a point with `t mod 8 = 7` writes back is its tile of the product array. -/
theorem flushed1_eq (c : Dev nD) (t : Fin cfg1.N) (hf : (cfg1.win 3).flush t = true) :
    (dat1 V c).flushed 3 t = ((cfg1.win 3).blk t).view.read (Elt Ideal) (prodArr (V c main_v2) (V c main_v0) (V c main_v3)) := by
  have h7 : t.val % 8 = 7 := (flush1_3 t).mp hf
  have hlt := lt512 t
  show (cfg1.win 3).cut (grid1.coords t) ((dat1 V c).after 3 t) = _
  rw [after1_3]
  obtain ⟨-, -, -, -, -, -, e0, e1⟩ := idx1 t
  funext y
  obtain ⟨r, cc, rfl⟩ : ∃ (r : Fin 1024) (cc : Fin 2048), y = ix2 r cc := ⟨y 0, y 1, eq_ix2 y⟩
  show k1_pay3 (F := Ideal) (acc1 V c t.val t.isLt) (iblk1 V c 2 t) (ix2 r cc) = prodArr (V c main_v2) (V c main_v0) (V c main_v3) (((cfg1.win 3).blk t).view.emb (ix2 r cc))
  refine (pay3_apply (acc1 V c t.val t.isLt) (iblk1 V c 2 t) r cc).trans ?_
  rw [acc1_last V c t h7 r cc, iblk1_2_apply V c t cc]
  unfold prodArr
  have h0 : (⟨t.val / 8 / 8 * 1024 + r.val, by omega⟩ : Fin 8192) = (((cfg1.win 3).blk t).view.emb (ix2 r cc)) 0 := by
    apply Fin.ext
    show t.val / 8 / 8 * 1024 + r.val = win1_3.index t 0 * 1024 + 1 * r.val
    rw [e0]; omega
  have h1 : (⟨t.val / 8 % 8 * 2048 + cc.val, by omega⟩ : Fin 16384) = (((cfg1.win 3).blk t).view.emb (ix2 r cc)) 1 := by
    apply Fin.ext
    show t.val / 8 % 8 * 2048 + cc.val = win1_3.index t 1 * 2048 + 1 * cc.val
    rw [e1]; omega
  rw [← h0, ← h1]

theorem mem_blk1 (t : Fin cfg1.N) (i : S8192x16384.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v4).slice (win1_3.rect t)).set ↔ _
  rw [View.set_slice_whole, Rect.mem_set_unit]
  exact Iff.rfl

/-- The tiles cover the array: entry (r, o) is in the tile written back at point `((r / 1024)·8 + o / 2048)·8 + 7`. -/
theorem cover1 (i : S8192x16384.Idx) : ∃ t : Fin cfg1.N, (cfg1.win 3).flush t = true ∧ i ∈ ((cfg1.win 3).blk t).view.set := by
  have hi0 : (i 0).val < 8192 := (i 0).isLt
  have hi1 : (i 1).val < 16384 := (i 1).isLt
  have hN : cfg1.N = 512 := N_1
  let t : Fin cfg1.N := ⟨((i 0).val / 1024 * 8 + (i 1).val / 2048) * 8 + 7, by rw [hN]; omega⟩
  obtain ⟨-, -, -, -, -, -, e0, e1⟩ := idx1 t
  have ht : t.val = ((i 0).val / 1024 * 8 + (i 1).val / 2048) * 8 + 7 := rfl
  refine ⟨t, (flush1_3 t).mpr (by rw [ht]; omega), ?_⟩
  rw [mem_blk1]
  intro a
  match a with
  | ⟨0, _⟩ => show win1_3.index t 0 * 1024 ≤ (i 0).val ∧ (i 0).val < win1_3.index t 0 * 1024 + 1024; rw [e0, ht]; omega
  | ⟨1, _⟩ => show win1_3.index t 1 * 2048 ≤ (i 1).val ∧ (i 1).val < win1_3.index t 1 * 2048 + 2048; rw [e1, ht]; omega

/-- The product array after region 1. -/
theorem final1 (c : Dev nD) : (dat1 V c).arrAt 3 cfg1.N = prodArr (V c main_v2) (V c main_v0) (V c main_v3) :=
  (dat1 V c).arrAt_eq_of_cover 3 (prodArr (V c main_v2) (V c main_v0) (V c main_v3)) (fun t hf => flushed1_eq V c t hf) cover1

end Cert.KernelIdeal.Hand

end
-- ==== Proof.KI.Value.lean ====
/-
  The result buffer at the program's end, at the extended reals, as the function `G` of the three argument arrays. Read
  through the boundaries: the last reshape of the product array that region 1 leaves; its left factor the activations
  reshaped to 8192 rows (the change of format is the identity), its right factor the restored weight that region 0 leaves,
  its bias row the bias reshaped to one row.
-/
import proofs.«154149_j74577812128642_2_alg».proof.Proof.KI.Run
import proofs.«154149_j74577812128642_2_alg».proof.Proof.KI.QuantArr
import proofs.«154149_j74577812128642_2_alg».proof.Proof.KI.MatmulArr
import Idealize.ShloMosaic.Lib.StableHlo.Run

noncomputable section

namespace Cert.KernelIdeal.Hand

open Cert.KernelIdeal Cert.KernelIdeal.Gen Cert.Spec
open Idealize.ShloMosaic Idealize.ShloMosaic.TcCoe Idealize.ShloMosaic.ValueIdx Idealize.SL.Sem Idealize.ShloMosaic.StableHlo
open Idealize.ShloMosaic.Pipeline (Dat)

/-! ## The host operations, as functions of the valuation they start from -/

theorem host1_v2 (Wv : Valuation τ sig (Elt Ideal)) : after hostOps1 Wv (main_v2 : DevRef τ sig)
    = truncf (F := Ideal) .bf16 (shapeCast S8192x4096 (Wv (main_arg0 : DevRef τ sig)) shapeCasts_S4x2048x4096_S8192x4096) bitsLt_bf16_f32 := by
  after_results
  rfl
theorem host1_v3 (Wv : Valuation τ sig (Elt Ideal)) : after hostOps1 Wv (main_v3 : DevRef τ sig)
    = shapeCast S1x16384 (Wv (main_arg2 : DevRef τ sig)) shapeCasts_S16384_S1x16384 := by
  after_results
  rfl
theorem host2_v5 (Wv : Valuation τ sig (Elt Ideal)) : after hostOps2 Wv (main_v5 : DevRef τ sig)
    = shapeCast S4x2048x16384 (Wv (main_v4 : DevRef τ sig)) shapeCasts_S8192x16384_S4x2048x16384 := by
  after_results
  rfl

/-! ## The reshapes read at an index -/

/-- Row `b · 2048 + s` of the reshaped activations is position (b, s). -/
theorem x2_apply (X : S4x2048x4096.Idx → EReal) (b : Fin 4) (s : Fin 2048) (k : Fin 4096) :
    (truncf (F := Ideal) .bf16 (shapeCast S8192x4096 X shapeCasts_S4x2048x4096_S8192x4096) bitsLt_bf16_f32 : FVec Ideal S8192x4096 .bf16)
        (ix2 (⟨b.val * 2048 + s.val, by omega⟩ : Fin 8192) k) = X (ix3 b s k) := by
  rw [truncf_apply]
  exact shapeCast_apply X shapeCasts_S4x2048x4096_S8192x4096 _ (ix3 b s k)
    (by rewrite [Shape.rowMajor_val_three, Shape.rowMajor_val_two]; rfl)

/-- The one-row bias at column `o` is the bias at `o`. -/
theorem b2_apply (bias : S16384.Idx → EReal) (o : Fin 16384) :
    shapeCast S1x16384 bias shapeCasts_S16384_S1x16384 (ix2 (0 : Fin 1) o) = bias (ix1 o) :=
  shapeCast_apply bias shapeCasts_S16384_S1x16384 _ (ix1 o)
    (by rewrite [Shape.rowMajor_val_one, Shape.rowMajor_val_two]; show o.val = 0 * 16384 + o.val; omega)

/-- Position (b, s, o) of the reshaped product is row `b · 2048 + s`, column `o`. -/
theorem y_apply (Y : S8192x16384.Idx → EReal) (b : Fin 4) (s : Fin 2048) (o : Fin 16384) :
    shapeCast S4x2048x16384 Y shapeCasts_S8192x16384_S4x2048x16384 (ix3 b s o) = Y (ix2 (⟨b.val * 2048 + s.val, by omega⟩ : Fin 8192) o) :=
  shapeCast_apply Y shapeCasts_S8192x16384_S4x2048x16384 _ (ix2 (⟨b.val * 2048 + s.val, by omega⟩ : Fin 8192) o)
    (by rewrite [Shape.rowMajor_val_three, Shape.rowMajor_val_two]; rfl)

/-! ## The boundaries' contents -/

variable (m : (ℓ : Loc nD τ sig) → Buf (Elt Ideal) ℓ) (ρ : Dev nD → PrngReg)

/-- After region 0 the restored-weight buffer holds `wq` of the weight matrix. -/
theorem W1_main_v0 (c : Dev nD) : W1 m ρ c (Proc.devRef .tc main_v0) = wqArr (m ((c : Thread nD τ).loc main_arg1)) :=
  (W1_arr m ρ c 1).trans (final0 (V0 m ρ) c)
theorem W1_main_arg0 (c : Dev nD) : W1 m ρ c (Proc.devRef .tc main_arg0) = m ((c : Thread nD τ).loc main_arg0) :=
  (W1_of_ne m ρ c main_arg0 (by decide)).trans rfl
theorem W1_main_arg2 (c : Dev nD) : W1 m ρ c (Proc.devRef .tc main_arg2) = m ((c : Thread nD τ).loc main_arg2) :=
  (W1_of_ne m ρ c main_arg2 (by decide)).trans rfl

/-- Region 1's three inputs as it finds them. -/
theorem W2_main_v2 (c : Dev nD) : W2 m ρ c (Proc.devRef .tc main_v2)
    = truncf (F := Ideal) .bf16 (shapeCast S8192x4096 (m ((c : Thread nD τ).loc main_arg0)) shapeCasts_S4x2048x4096_S8192x4096) bitsLt_bf16_f32 :=
  (host1_v2 (W1 m ρ c)).trans (by rw [W1_main_arg0])
theorem W2_main_v3 (c : Dev nD) : W2 m ρ c (Proc.devRef .tc main_v3)
    = shapeCast S1x16384 (m ((c : Thread nD τ).loc main_arg2)) shapeCasts_S16384_S1x16384 :=
  (host1_v3 (W1 m ρ c)).trans (by rw [W1_main_arg2])
theorem W2_main_v0 (c : Dev nD) : W2 m ρ c (Proc.devRef .tc main_v0) = wqArr (m ((c : Thread nD τ).loc main_arg1)) :=
  (W2_of m ρ c main_v0 (by decide)).trans (W1_main_v0 m ρ c)

/-- After region 1 the product buffer holds the product array of those three. -/
theorem W3_main_v4 (c : Dev nD) : W3 m ρ c (Proc.devRef .tc main_v4)
    = prodArr (W2 m ρ c (Proc.devRef .tc main_v2)) (W2 m ρ c (Proc.devRef .tc main_v0)) (W2 m ρ c (Proc.devRef .tc main_v3)) :=
  (W3_arr m ρ c 3).trans (final1 (V2 m ρ) c)

/-- THE RESULT: at the program's end the result buffer holds `G` of the argument arrays. -/
theorem W4_main_v5 (c : Dev nD) : W4 m ρ c (Proc.devRef .tc main_v5)
    = G (m ((c : Thread nD τ).loc main_arg0)) (m ((c : Thread nD τ).loc main_arg1)) (m ((c : Thread nD τ).loc main_arg2)) := by
  refine (host2_v5 (W3 m ρ c)).trans ?_
  rw [W3_main_v4, W2_main_v2, W2_main_v0, W2_main_v3]
  funext j
  obtain ⟨b, s, o, rfl⟩ : ∃ (b : Fin 4) (s : Fin 2048) (o : Fin 16384), j = ix3 b s o := ⟨j 0, j 1, j 2, eq_ix3 j⟩
  refine (y_apply _ b s o).trans ?_
  show (∑ k : Fin 4096, _ * _) + _ = Gat _ _ _ b s o
  unfold Gat
  rw [b2_apply]
  congr 1
  refine Finset.sum_congr rfl fun k _ => ?_
  rw [x2_apply]
  rfl

end Cert.KernelIdeal.Hand

end
-- ==== Proof.RefValue.lean ====
/-
  The reference program computes `Cert.Spec.G`.

  The reference reshapes the weight matrix `W` (16384 × 4096) to 128 × 128 × 32 × 128 and swaps the two middle axes, so
  that entry (p, q, r, l) of the rearranged array is `W (p·128 + r, q·128 + l)`: row `r`, column `l` of block (p, q).
  The maximum of the absolute values over the last two axes, started from −∞, is the block's largest absolute value; the
  scale, the quantised and restored entries and the way back to 16384 × 4096 are pointwise in this arrangement. Read at
  (o, i) the restored matrix takes entry (o / 128, i / 128, o % 128, i % 128), the entry of row `o`, column `i` within
  its block. The contraction over the 4096 columns and the bias row added to every position give `G`.
-/
import proofs.«154149_j74577812128642_2_alg».proof.Proof.Spec
import proofs.«154149_j74577812128642_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.Gen Cert.ReferenceIdeal.Read

/-- The weight argument's type, and the other two arguments'. -/
abbrev WArr : Type := (⟨S16384x4096, .f32⟩ : BufTy).Contents (Elt Ideal)
abbrev XArr : Type := (⟨S4x2048x4096, .f32⟩ : BufTy).Contents (Elt Ideal)
abbrev BArr : Type := (⟨S16384, .f32⟩ : BufTy).Contents (Elt Ideal)

/-! ## The index arithmetic -/

/-- Entry (p, q, r, l) of the rearranged weight array sits at row `p·128 + r`, column `q·128 + l` of the matrix. -/
theorem idx_blocked (p : Fin 128) (q : Fin 32) (r l : Fin 128) :
    idx_main_v0 (idx_main_v1 (ix4 p q r l)) = ix2 (Spec.row p r) (Spec.col q l) := by
  funext a
  have hp := p.isLt; have hq := q.isLt; have hr := r.isLt; have hl := l.isLt
  match a with
  | ⟨0, _⟩ =>
    refine Fin.ext ?_
    show (((p.val * 128 + r.val) * 32 + q.val) * 128 + l.val) / 4096 = p.val * 128 + r.val
    omega
  | ⟨1, _⟩ =>
    refine Fin.ext ?_
    show (((p.val * 128 + r.val) * 32 + q.val) * 128 + l.val) % 4096 = q.val * 128 + l.val
    omega

/-- The rearranged weight array at (p, q, r, l). -/
theorem v1_at (W : WArr) (p : Fin 128) (q : Fin 32) (r l : Fin 128) :
    val_main_v1 (F := Ideal) W (ix4 p q r l) = W (ix2 (Spec.row p r) (Spec.col q l)) := by
  rw [val_main_v1_apply, val_main_v0_apply, idx_blocked]

/-- The absolute values of the rearranged array: `max x (−x)` on the extended reals. -/
theorem v2_at (W : WArr) (p : Fin 128) (q : Fin 32) (r l : Fin 128) :
    val_main_v2 (F := Ideal) W (ix4 p q r l)
      = max (W (ix2 (Spec.row p r) (Spec.col q l))) (-(W (ix2 (Spec.row p r) (Spec.col q l)))) := by
  rw [val_main_v2_apply, v1_at]
  rfl

/-! ## The block maximum -/

/-- The word the reduction starts from denotes −∞, the least extended real. -/
theorem ofBits_negInf : Ideal.ofBits .f32 0xFF800000#32 = (⊥ : EReal) := by simp [Ideal.ofBits, Ideal.ieee]

/-- Removing the last two coordinates of an index of the rearranged array leaves (p, q) exactly when its first two
    coordinates are `p` and `q`. -/
theorem drop_eq_iff (h : S128x32x128x128.ReducesTo [2, 3] S128x32) (i : S128x32x128x128.Idx) (p : Fin 128) (q : Fin 32) :
    h.drop i = ix2 p q ↔ (i 0).val = p.val ∧ (i 1).val = q.val := by
  have h0 : ((h.drop i 0 : Fin 128) : Nat) = (i 0).val := h.drop_apply_val_of_eq i 0 0
  have h1 : ((h.drop i 1 : Fin 32) : Nat) = (i 1).val := h.drop_apply_val_of_eq i 1 1
  constructor
  · intro e
    rw [e] at h0 h1
    exact ⟨h0.symm, h1.symm⟩
  · rintro ⟨e0, e1⟩
    funext b
    match b with
    | ⟨0, _⟩ => exact Fin.ext (h0.trans e0)
    | ⟨1, _⟩ => exact Fin.ext (h1.trans e1)

/-- The maximum over the last two axes, started from −∞, is the block's largest absolute value: the indices that drop
    to (p, q) are the (p, q, r, l), one for each pair (r, l). -/
theorem v3_at (W : WArr) (p : Fin 128) (q : Fin 32) :
    val_main_v3 (F := Ideal) W (ix2 p q) = Spec.blkMax W p q := by
  unfold val_main_v3
  rw [Host.reduce_eq_fold, val_main_cst_apply, Ideal.ofBits_def, ofBits_negInf]
  show (Finset.univ.filter fun i => reducesTo_S128x32x128x128_S128x32_d2_3.drop i = ix2 p q).sup (val_main_v2 (F := Ideal) W) = _
  unfold Spec.blkMax
  refine le_antisymm (Finset.sup_le fun i hi => ?_) (Finset.sup_le fun rl _ => ?_)
  · obtain ⟨e0, e1⟩ := (drop_eq_iff _ i p q).1 (Finset.mem_filter.1 hi).2
    obtain ⟨r, l, rfl⟩ : ∃ r l : Fin 128, i = ix4 p q r l :=
      ⟨i 2, i 3, funext fun a => match a with
        | ⟨0, _⟩ => Fin.ext e0
        | ⟨1, _⟩ => Fin.ext e1
        | ⟨2, _⟩ => rfl
        | ⟨3, _⟩ => rfl⟩
    rw [v2_at]
    exact Finset.le_sup (f := fun rl : Fin 128 × Fin 128 =>
      max (W (ix2 (Spec.row p rl.1) (Spec.col q rl.2))) (-(W (ix2 (Spec.row p rl.1) (Spec.col q rl.2)))))
      (Finset.mem_univ (r, l))
  · rw [← v2_at W p q rl.1 rl.2]
    exact Finset.le_sup (f := val_main_v2 (F := Ideal) W)
      (Finset.mem_filter.2 ⟨Finset.mem_univ _, (drop_eq_iff _ (ix4 p q rl.1 rl.2) p q).2 ⟨rfl, rfl⟩⟩)

/-! ## The scale, and the entries quantised and restored -/

/-- The scale array (128 × 32 × 1 × 1) read where the broadcast to 128 × 32 × 128 × 128 reads it for (p, q, r, l):
    the scale of block (p, q). -/
theorem v8_at (W : WArr) (p : Fin 128) (q : Fin 32) (r l : Fin 128) :
    val_main_v8 (F := Ideal) W (idx_main_v9 (ix4 p q r l)) = Spec.scale W p q := by
  have e : idx_main_v4 (idx_main_v9 (ix4 p q r l)) = ix2 p q :=
    funext fun a => match a with
      | ⟨0, _⟩ => rfl
      | ⟨1, _⟩ => rfl
  rw [val_main_v8_apply, val_main_v6_apply, val_main_v4_apply, val_main_v5_apply, val_main_cst_0_apply,
    val_main_v7_apply, val_main_cst_1_apply, e, v3_at]
  rfl

/-- The product of the clipped quotient and the scale at (p, q, r, l): entry (r, l) of block (p, q) quantised and
    restored with the block's scale. -/
theorem v13_at (W : WArr) (p : Fin 128) (q : Fin 32) (r l : Fin 128) :
    val_main_v13 (F := Ideal) W (ix4 p q r l)
      = min Spec.c448 (max Spec.cm448 (Ideal.div (W (ix2 (Spec.row p r) (Spec.col q l))) (Spec.scale W p q)))
          * Spec.scale W p q := by
  have e : idx_main_v12 (ix4 p q r l) = idx_main_v9 (ix4 p q r l) := rfl
  rw [val_main_v13_apply, val_main_v11_apply, val_main_call0_v4_apply, val_main_call0_v3_apply, val_main_cst_3_apply,
    val_main_call0_v2_apply, val_main_call0_v1_apply, val_main_call0_v0_apply, val_main_cst_2_apply,
    val_main_v10_apply, v1_at, val_main_v9_apply, val_main_v12_apply, e, v8_at]
  rfl

/-- Entry (o, i) of the matrix, on the way back, is entry (o / 128, i / 128, o % 128, i % 128) of the block arrangement. -/
theorem idx_back (o : Fin 16384) (i : Fin 4096) :
    idx_main_v14 (idx_main_v15 (ix2 o i))
      = ix4 (Spec.blkRow o) (Spec.blkCol i) (⟨o.val % 128, Nat.mod_lt _ (by decide)⟩ : Fin 128)
          (⟨i.val % 128, Nat.mod_lt _ (by decide)⟩ : Fin 128) := by
  funext a
  have ho := o.isLt; have hi := i.isLt
  match a with
  | ⟨0, _⟩ =>
    refine Fin.ext ?_
    show (o.val * 4096 + i.val) / 524288 = o.val / 128
    omega
  | ⟨1, _⟩ =>
    refine Fin.ext ?_
    show (o.val * 4096 + i.val) / 128 % 32 = i.val / 128
    omega
  | ⟨2, _⟩ =>
    refine Fin.ext ?_
    show (o.val * 4096 + i.val) / 4096 % 128 = o.val % 128
    omega
  | ⟨3, _⟩ =>
    refine Fin.ext ?_
    show (o.val * 4096 + i.val) % 128 = i.val % 128
    omega

/-- The restored matrix at (o, i). -/
theorem v15_at (W : WArr) (o : Fin 16384) (i : Fin 4096) :
    val_main_v15 (F := Ideal) W (ix2 o i) = Spec.wq W o i := by
  have er : Spec.row (Spec.blkRow o) (⟨o.val % 128, Nat.mod_lt _ (by decide)⟩ : Fin 128) = o :=
    Fin.ext (by show o.val / 128 * 128 + o.val % 128 = o.val; omega)
  have ec : Spec.col (Spec.blkCol i) (⟨i.val % 128, Nat.mod_lt _ (by decide)⟩ : Fin 128) = i :=
    Fin.ext (by show i.val / 128 * 128 + i.val % 128 = i.val; omega)
  rw [val_main_v15_apply, val_main_v14_apply, idx_back, v13_at, er, ec]
  rfl

/-! ## The contraction and the bias -/

/-- The reference's result is `G` of its three arguments. -/
theorem ref_eq_G (x0 : (⟨Cert.ReferenceIdeal.S4x2048x4096, .f32⟩ : BufTy).Contents (Elt Ideal))
    (x1 : (⟨Cert.ReferenceIdeal.S16384x4096, .f32⟩ : BufTy).Contents (Elt Ideal))
    (x2 : (⟨Cert.ReferenceIdeal.S16384, .f32⟩ : BufTy).Contents (Elt Ideal)) :
    Cert.ReferenceIdeal.Read.val_main_v19 (F := Ideal) x0 x1 x2 = Cert.Spec.G x0 x1 x2 := by
  funext j
  obtain ⟨b, t, o, rfl⟩ : ∃ (b : Fin 4) (t : Fin 2048) (o : Fin 16384), j = ix3 b t o := ⟨j 0, j 1, j 2, eq_ix3 j⟩
  have el : ∀ k : Fin 4096, lidx_main_v16 (ix3 b t o) k = ix3 b t k := fun k =>
    funext fun a => match a with
      | ⟨0, _⟩ => rfl
      | ⟨1, _⟩ => rfl
      | ⟨2, _⟩ => rfl
  have er : ∀ k : Fin 4096, ridx_main_v16 (ix3 b t o) k = ix2 o k := fun k =>
    funext fun a => match a with
      | ⟨0, _⟩ => rfl
      | ⟨1, _⟩ => rfl
  have eb : idx_main_v17 (idx_main_v18 (ix3 b t o)) = ix1 o :=
    funext fun a => match a with
      | ⟨0, _⟩ => rfl
  rw [val_main_v19_apply, val_main_v16_apply, val_main_v18_apply, val_main_v17_apply, eb]
  simp only [el, er, v15_at]
  rfl

end Cert.RefValue

end
-- ==== Proof.lean ====
/-
  The certificate's five claims.

  The program: the weight matrix is quantised and restored within 128 × 128 blocks (each block scaled by its largest absolute
  value over 448, entries clipped to ±448 at that scale), and the activations are multiplied against the restored weight
  with the bias added. The kernel does the first part slab by slab and the product tile by tile, accumulating each tile over
  eight blocks of the contracted axis; the reference does both in one piece. Over the extended reals a change of float
  format is the identity and addition is associative and commutative, so both compute the one function `Cert.Spec.G` of
  the three arguments: the kernel's block maximum (first down the rows, then across the lanes) and the reference's
  (over both axes at once) are the same supremum, and the kernel's eight partial sums of 512 products are the reference's
  one sum of 4096. No law used needs the inputs to be finite.

  Frames: each of the kernel's two programs runs as four segments (region, host operations, region, host operation); the
  buffer contents at each boundary are a fold from the launch memory, and the arguments are read back through it unchanged.
  The reference's frame is its run with the result dropped. The ideal pass rewrote nothing, so `preserves` is `True`.
-/
import proofs.«154149_j74577812128642_2_alg».proof.Defs
import proofs.«154149_j74577812128642_2_alg».proof.Proof.Gen.Kernel
import proofs.«154149_j74577812128642_2_alg».proof.Proof.Gen.KernelIdeal
import proofs.«154149_j74577812128642_2_alg».proof.Proof.Gen.ReferenceIdeal
import proofs.«154149_j74577812128642_2_alg».proof.Proof.Gen.Pre_finite_inputs
import proofs.«154149_j74577812128642_2_alg».proof.Proof.Gen.ReferenceIdeal.Read
import proofs.«154149_j74577812128642_2_alg».proof.Proof.K.Run
import proofs.«154149_j74577812128642_2_alg».proof.Proof.KI.Value
import proofs.«154149_j74577812128642_2_alg».proof.Proof.RefValue

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at `G` of the arguments: the kernel's by reading its run's last boundary,
    the reference's by reading its operations one at a time. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.W4_main_v5 m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v19_eq _ _ _).trans (Cert.RefValue.ref_eq_G _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
